-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x4096 : Shape := ⟨2, ![32768, 4096]⟩
abbrev S4096x64 : Shape := ⟨2, ![4096, 64]⟩
abbrev S64 : Shape := ⟨1, ![64]⟩
abbrev S_ : Shape := ⟨0, ![]⟩

class Facts : Prop where
  bcast_S_S32768x4096 : S_.BroadcastsInDim S32768x4096 (![] : Fin 0 → Fin S32768x4096.rank)
  reducesTo_S32768x4096_S_d0_1 : S32768x4096.ReducesTo [0, 1] S_
  h_S_ : 0 < S_.numel
  bcast_S_S4096x64 : S_.BroadcastsInDim S4096x64 (![] : Fin 0 → Fin S4096x64.rank)
  reducesTo_S4096x64_S_d0_1 : S4096x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S32768x4096 .f32) (main_arg1 : FVec F S4096x64 .f32) (main_arg2 : FVec F S64 .f32) : IVec S_ 1 :=
  let main_v0 : FVec F S32768x4096 .f32 := Host.absf main_arg0
  let main_cst : FVec F S_ .f32 := constant S_ .f32 0x7F800000#32
  let main_v1 : FVec F S32768x4096 .f32 := broadcastInDim S32768x4096 ![] bcast_S_S32768x4096 main_cst
  let main_v2 : IVec S32768x4096 1 := cmpf .olt main_v0 main_v1
  let main_c : IVec S_ 1 := constantI S_ 1 1#1
  let main_v3 : IVec S_ 1 := (fun x v => Host.reduce IntOp.andi x v reducesTo_S32768x4096_S_d0_1 h_S_) main_v2 main_c
  let main_v4 : FVec F S4096x64 .f32 := Host.absf main_arg1
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  let main_c_1 : IVec S_ 1 := constantI S_ 1 1#1
  let main_v7 : IVec S_ 1 := (fun x v => Host.reduce IntOp.andi x v reducesTo_S4096x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S32768x4096 : Shape := ⟨2, ![32768, 4096]⟩
abbrev S4096x64 : Shape := ⟨2, ![4096, 64]⟩
abbrev S64 : Shape := ⟨1, ![64]⟩
abbrev S32768x64 : Shape := ⟨2, ![32768, 64]⟩
abbrev S512x1024 : Shape := ⟨2, ![512, 1024]⟩
abbrev S1024x64 : Shape := ⟨2, ![1024, 64]⟩
abbrev S512x64 : Shape := ⟨2, ![512, 64]⟩
abbrev S1x64 : Shape := ⟨2, ![1, 64]⟩
abbrev S512 : Shape := ⟨1, ![512]⟩
abbrev S512x1 : Shape := ⟨2, ![512, 1]⟩

abbrev nBuf : Space → Nat
  | .hbm => 4
  | .vmem => 8
  | .smem => 0
  | _ => 0

abbrev bufTy : (tb : Table) → Fin (tcTables nBuf tb) → BufTy
  | .hbm, ⟨0, _⟩ => ⟨S32768x4096, .f32⟩
  | .hbm, ⟨1, _⟩ => ⟨S4096x64, .f32⟩
  | .hbm, ⟨2, _⟩ => ⟨S64, .f32⟩
  | .hbm, ⟨3, _⟩ => ⟨S32768x64, .f32⟩
  | .local _ .vmem, ⟨0, _⟩ => ⟨S512x1024, .f32⟩
  | .local _ .vmem, ⟨1, _⟩ => ⟨S512x1024, .f32⟩
  | .local _ .vmem, ⟨2, _⟩ => ⟨S1024x64, .f32⟩
  | .local _ .vmem, ⟨3, _⟩ => ⟨S1024x64, .f32⟩
  | .local _ .vmem, ⟨4, _⟩ => ⟨S64, .f32⟩
  | .local _ .vmem, ⟨5, _⟩ => ⟨S512x64, .f32⟩
  | .local _ .vmem, ⟨6, _⟩ => ⟨S512x64, .f32⟩
  | .local _ .vmem, ⟨7, _⟩ => ⟨S512x64, .f32⟩
  | _, _ => ⟨S32768x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![64, 4], ![false, false]⟩

def k0_cond3 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S512x1024_S512x1024_0_0 : ∀ a, (![0, 0] : Fin 2 → Nat) a + S512x1024.size a ≤ S512x1024.size a
  h_S512x1024 : 0 < S512x1024.numel
  inb_S1024x64_S1024x64_0_0 : ∀ a, (![0, 0] : Fin 2 → Nat) a + S1024x64.size a ≤ S1024x64.size a
  h_S1024x64 : 0 < S1024x64.numel
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S64_S64_0 : ∀ a, (![0] : Fin 1 → Nat) a + S64.size a ≤ S64.size a
  h_S64 : 0 < S64.numel
  shapeCasts_S64_S1x64 : S64.ShapeCasts S1x64
  broadcasts_S1x64_S512x64 : S1x64.Broadcasts S512x64
  reduces_S512x64_S512 : S512x64.Reduces [1] S512
  shapeCasts_S512_S512x1 : S512.ShapeCasts S512x1
  broadcasts_S512x1_S512x64 : S512x1.Broadcasts S512x64
  dot_S512x1024_S1024x64_S512x64_1_0_0_1_n_n_wf : DotDims.WF S512x1024 S1024x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S32768x4096.size a
  hwx0_0 : ∀ i : grid0.Coords, EltTy.bits .f32 = 32 ∨ (Rect.block (s := S32768x4096) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S4096x64.size a
  hwx0_1 : ∀ i : grid0.Coords, EltTy.bits .f32 = 32 ∨ (Rect.block (s := S4096x64) S1024x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x64.size a ≤ S32768x64.size a
  hwx0_3 : ∀ i : grid0.Coords, EltTy.bits .f32 = 32 ∨ (Rect.block (s := S32768x64) S512x64.size (cc0_transform_3 i) (hinb0_3 i)).WholeWords (EltTy.packing .f32)

variable [Facts₀]

def dot_S512x1024_S1024x64_S512x64_1_0_0_1_n_n : DotDims S512x1024 S1024x64 S512x64 where
  lhsContracting := [1]
  rhsContracting := [0]
  lhsNonContracting := [0]
  rhsNonContracting := [1]
  lhsBatch := []
  rhsBatch := []
  wf := dot_S512x1024_S1024x64_S512x64_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond3 i == 1#1) | ⟨_ + 4, h⟩ => absurd h (Nat.not_lt.2 (Nat.le_add_left _ _))

class Facts : Prop extends Facts₀ where

variable [Facts]
-- ==== ReferenceIdeal.lean ====
abbrev S32768x4096 : Shape := ⟨2, ![32768, 4096]⟩
abbrev S4096x64 : Shape := ⟨2, ![4096, 64]⟩
abbrev S64 : Shape := ⟨1, ![64]⟩
abbrev S32768x64 : Shape := ⟨2, ![32768, 64]⟩
abbrev S1x64 : Shape := ⟨2, ![1, 64]⟩
abbrev S_ : Shape := ⟨0, ![]⟩
abbrev S32768 : Shape := ⟨1, ![32768]⟩
abbrev S32768x1 : Shape := ⟨2, ![32768, 1]⟩

abbrev nBuf : Space → Nat
  | .hbm => 21
  | .vmem => 0
  | .smem => 0
  | _ => 0

abbrev bufTy : (tb : Table) → Fin (tcTables nBuf tb) → BufTy
  | .hbm, ⟨0, _⟩ => ⟨S32768x4096, .f32⟩
  | .hbm, ⟨1, _⟩ => ⟨S4096x64, .f32⟩
  | .hbm, ⟨2, _⟩ => ⟨S64, .f32⟩
  | .hbm, ⟨3, _⟩ => ⟨S32768x64, .f32⟩
  | .hbm, ⟨4, _⟩ => ⟨S1x64, .f32⟩
  | .hbm, ⟨5, _⟩ => ⟨S32768x64, .f32⟩
  | .hbm, ⟨6, _⟩ => ⟨S32768x64, .f32⟩
  | .hbm, ⟨7, _⟩ => ⟨S_, .f32⟩
  | .hbm, ⟨8, _⟩ => ⟨S32768, .f32⟩
  | .hbm, ⟨9, _⟩ => ⟨S_, .f32⟩
  | .hbm, ⟨10, _⟩ => ⟨S32768, .f32⟩
  | .hbm, ⟨11, _⟩ => ⟨S32768, .f32⟩
  | .hbm, ⟨12, _⟩ => ⟨S32768x1, .f32⟩
  | .hbm, ⟨13, _⟩ => ⟨S32768x64, .f32⟩
  | .hbm, ⟨14, _⟩ => ⟨S32768x64, .f32⟩
  | .hbm, ⟨15, _⟩ => ⟨S32768x64, .f32⟩
  | .hbm, ⟨16, _⟩ => ⟨S_, .f32⟩
  | .hbm, ⟨17, _⟩ => ⟨S32768, .f32⟩
  | .hbm, ⟨18, _⟩ => ⟨S32768x1, .f32⟩
  | .hbm, ⟨19, _⟩ => ⟨S32768x64, .f32⟩
  | .hbm, ⟨20, _⟩ => ⟨S32768x64, .f32⟩
  | _, _ => ⟨S32768x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S32768x64_0_1 : S1x64.BroadcastsInDim S32768x64 (![0, 1] : Fin 2 → Fin S32768x64.rank)
  reducesTo_S32768x64_S32768_d1 : S32768x64.ReducesTo [1] S32768
  h_S_ : 0 < S_.numel
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x64_0_1 : S32768x1.BroadcastsInDim S32768x64 (![0, 1] : Fin 2 → Fin S32768x64.rank)
  dot_S32768x4096_S4096x64_S32768x64_1_0_0_1_n_n_wf : DotDims.WF S32768x4096 S4096x64 S32768x64 [1] [0] [0] [1] [] []

variable [Facts₀]

def dot_S32768x4096_S4096x64_S32768x64_1_0_0_1_n_n : DotDims S32768x4096 S4096x64 S32768x64 where
  lhsContracting := [1]
  rhsContracting := [0]
  lhsNonContracting := [0]
  rhsNonContracting := [1]
  lhsBatch := []
  rhsBatch := []
  wf := dot_S32768x4096_S4096x64_S32768x64_1_0_0_1_n_n_wf

class Facts : Prop extends Facts₀ where

variable [Facts]
-- ==== Proof.BitsShared.lean ====
/-
  The router kernel's body, point by point: what its three conditionals depend on.

  The grid is 64 row blocks by 4 slabs of the contracted axis, walked row block by row block, so point `t`
  is slab `t % 4` of row block `t / 4`. The body's three conditionals test the slab number only: the first
  slab of a row block (the accumulator is overwritten by the slab's partial product), a later slab (the partial
  product is added to the accumulator), the last slab (bias, row maximum, exponentials, normalisation, and the
  only store into the output block). This module decides the three conditions over the 256 points, says at
  which points the output window is idle, and names the buffers the body is handed.
-/
import proofs.«153409_g36782099923439_cont_sun_c4_695_25_alg».proof.Proof.Gen.Kernel.Launch
import proofs.«153409_g36782099923439_cont_sun_c4_695_25_alg».proof.Proof.Gen.Kernel.Skeleton
import proofs.«153409_g36782099923439_cont_sun_c4_695_25_alg».proof.Proof.Gen.Kernel.Points
import proofs.«153409_g36782099923439_cont_sun_c4_695_25_alg».proof.Proof.Gen.Kernel.Frame
import Idealize.ShloMosaic.Lib.Pipeline.FrameBody
import Idealize.ShloMosaic.Lib.Ring
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The three conditions, as functions of the point -/

/-- The slab is the first of its row block (the body's first conditional, as the body computes it). -/
abbrev isFirst (i : grid0.Coords) : Prop :=
  (Scalar.cmpi .ne (Scalar.extui (Scalar.cmpi .eq (BitVec.ofNat 32 (i 1).val) 0#32)) 0#32) = 1#1
/-- It holds exactly at the points whose number is a multiple of 4. -/
theorem isFirst_iff : ∀ t : Fin cfg0.N, isFirst (grid0.coords t) ↔ t.val % 4 = 0 :=
  (by decide +kernel : ∀ t : Fin grid0.N, isFirst (grid0.coords t) ↔ t.val % 4 = 0)

/-- The slab is not the first of its row block (the body's second conditional). -/
abbrev isLater (i : grid0.Coords) : Prop :=
  (Scalar.cmpi .ne (Scalar.extui (Scalar.cmpi .ne (BitVec.ofNat 32 (i 1).val) 0#32)) 0#32) = 1#1
/-- It holds exactly at the other points. -/
theorem isLater_iff : ∀ t : Fin cfg0.N, isLater (grid0.coords t) ↔ t.val % 4 ≠ 0 :=
  (by decide +kernel : ∀ t : Fin grid0.N, isLater (grid0.coords t) ↔ t.val % 4 ≠ 0)

/-- The slab is the last of its row block (the body's third conditional). -/
abbrev isLast (i : grid0.Coords) : Prop := k0_cond3 i = 1#1
/-- It holds exactly at the points congruent to 3 modulo 4. -/
theorem isLast_iff : ∀ t : Fin cfg0.N, isLast (grid0.coords t) ↔ t.val % 4 = 3 :=
  (by decide +kernel : ∀ t : Fin grid0.N, isLast (grid0.coords t) ↔ t.val % 4 = 3)

/-! ## Where the windows are idle -/

/-- The three input windows are never idle. -/
theorem live_in0 : ∀ t : Fin cfg0.N, cfg0.idle 0 (grid0.coords t) = false := by decide +kernel
theorem live_in1 : ∀ t : Fin cfg0.N, cfg0.idle 1 (grid0.coords t) = false := by decide +kernel
theorem live_in2 : ∀ t : Fin cfg0.N, cfg0.idle 2 (grid0.coords t) = false := by decide +kernel
/-- Off the last slab the output window is idle (nothing is stored into its block) -/
theorem idle_out : ∀ t : Fin cfg0.N, ¬isLast (grid0.coords t) → cfg0.idle 3 (grid0.coords t) = true := by decide +kernel
/-- and its block is not written back there; -/
theorem noFlush_out : ∀ t : Fin cfg0.N, ¬isLast (grid0.coords t) → (cfg0.win 3).flush t = false := by decide +kernel
/-- at the last slab it is live. -/
theorem live_out : ∀ t : Fin cfg0.N, isLast (grid0.coords t) → cfg0.idle 3 (grid0.coords t) = false := by decide +kernel

/-! ## The buffers the body is handed -/

/-- Each window's current staging buffer at point `t`, and that it is a whole buffer. -/
abbrev ms0 (t : Fin cfg0.N) : Memref sig .tc .vmem S512x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x64 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x64 .f32 := win0_3.stage (cfg0.slots t 3)
abbrev hs3 (t : Fin cfg0.N) : (ms3 t).IsWhole := hstage0_3 ((cfg0.slots t 3).cast nbuf0_3)
/-- The accumulator: a whole buffer of the kernel's own, kept from one point to the next. -/
abbrev accM : Memref sig .tc .vmem S512x64 .f32 := Memref.whole cc0_scratch0
/-- The accumulator and one staging buffer of the output window as views: contents are stated through them. -/
abbrev accV : View sig .tc .vmem S512x64 .f32 := accM.view
abbrev outV : View sig .tc .vmem S512x64 .f32 := (Memref.whole cc0_stg3_0 : Memref sig .tc .vmem S512x64 .f32).view

/-- What the region lends the body besides the windows: the accumulator at some contents, and the generator
    register at some state. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.Kernel.Body

end
-- ==== Proof.BitsRuns.lean ====
/-
  The router kernel's body run once per case of its conditionals, on any whole staging buffers.

  Three cases meet the grid. At the FIRST slab of a row block the body loads the two operand blocks and overwrites the
  accumulator with their product. At a LATER slab that is not the last it loads the accumulator and stores it back with
  the slab's product added. At the LAST slab it does that and then loads the accumulator again, loads the bias block,
  and stores the normalised exponentials into the output block. Each run is stated with the list of stores it leaves
  in each buffer it writes (found while the body is run), the buffers it only reads handed back as they were, and the
  output block handed back untouched where the case stores nothing into it.
-/
import proofs.«153409_g36782099923439_cont_sun_c4_695_25_alg».proof.Proof.BitsShared

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The first slab of a row block: the accumulator, at anything before, ends with the listed stores written; the output
    block is handed back as it was found. -/
noncomputable def runFirst (c : Dev nD) (i : grid0.Coords) (arg2 : Memref sig .tc .vmem S512x1024 .f32) (harg2 : arg2.IsWhole) (arg3 : Memref sig .tc .vmem S1024x64 .f32) (harg3 : arg3.IsWhole) (arg4 : Memref sig .tc .vmem S64 .f32) (harg4 : arg4.IsWhole) (arg5 : Memref sig .tc .vmem S512x64 .f32) (harg5 : arg5.IsWhole) (arg6 : Memref sig .tc .vmem S512x64 .f32) (harg6 : arg6.IsWhole)
    (hc0 : isFirst i) (hc1 : ¬isLater i) (hc2 : ¬isLast i)
    (x0 : Vec F S512x1024 .f32) (x1 : Vec F S1024x64 .f32) (x2 : Vec F S64 .f32) :
    { LS : List (View.Piece (Elt F) S512x64 .f32) //
      ∀ (xi3 : Vec F S512x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc0__router_block i arg2 harg2 arg3 harg3 arg4 harg4 arg5 harg5 arg6 harg6) K } := by
  refine ⟨?_, fun xi3 E K => ?run⟩
  case run =>
    simp only [cc0__router_block_eq_skeleton]; unfold cc0__router_block_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1000000 in
/-- A later slab that is not the last: the accumulator, at `xs` before, ends with the listed stores written; the output
    block is handed back as it was found. -/
noncomputable def runLater (c : Dev nD) (i : grid0.Coords) (arg2 : Memref sig .tc .vmem S512x1024 .f32) (harg2 : arg2.IsWhole) (arg3 : Memref sig .tc .vmem S1024x64 .f32) (harg3 : arg3.IsWhole) (arg4 : Memref sig .tc .vmem S64 .f32) (harg4 : arg4.IsWhole) (arg5 : Memref sig .tc .vmem S512x64 .f32) (harg5 : arg5.IsWhole) (arg6 : Memref sig .tc .vmem S512x64 .f32) (harg6 : arg6.IsWhole)
    (hc0 : ¬isFirst i) (hc1 : isLater i) (hc2 : ¬isLast i)
    (x0 : Vec F S512x1024 .f32) (x1 : Vec F S1024x64 .f32) (x2 : Vec F S64 .f32) (xs : Vec F S512x64 .f32) :
    { LS : List (View.Piece (Elt F) S512x64 .f32) //
      ∀ (xi3 : Vec F S512x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc0__router_block i arg2 harg2 arg3 harg3 arg4 harg4 arg5 harg5 arg6 harg6) K } := by
  refine ⟨?_, fun xi3 E K => ?run⟩
  case run =>
    simp only [cc0__router_block_eq_skeleton]; unfold cc0__router_block_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1000000 in
/-- The last slab of a row block: the accumulator, at `xs` before, and the output block, at anything before, each end
    with the listed stores written. -/
noncomputable def runLast (c : Dev nD) (i : grid0.Coords) (arg2 : Memref sig .tc .vmem S512x1024 .f32) (harg2 : arg2.IsWhole) (arg3 : Memref sig .tc .vmem S1024x64 .f32) (harg3 : arg3.IsWhole) (arg4 : Memref sig .tc .vmem S64 .f32) (harg4 : arg4.IsWhole) (arg5 : Memref sig .tc .vmem S512x64 .f32) (harg5 : arg5.IsWhole) (arg6 : Memref sig .tc .vmem S512x64 .f32) (harg6 : arg6.IsWhole)
    (hc0 : ¬isFirst i) (hc1 : isLater i) (hc2 : isLast i)
    (x0 : Vec F S512x1024 .f32) (x1 : Vec F S1024x64 .f32) (x2 : Vec F S64 .f32) (xs : Vec F S512x64 .f32) :
    Σ' (L3 : List (View.Piece (Elt F) S512x64 .f32)), { LS : List (View.Piece (Elt F) S512x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc0__router_block i arg2 harg2 arg3 harg3 arg4 harg4 arg5 harg5 arg6 harg6) K } := by
  refine ⟨?_, ?_, fun E K => ?run⟩
  case run =>
    simp only [cc0__router_block_eq_skeleton]; unfold cc0__router_block_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.Kernel.Body

end
-- ==== Proof.BitsFrame.lean ====
/-
  The router kernel's frame: every execution of the program ends, faults nowhere, and leaves its arguments as they were.

  What the accumulator holds after each point is defined by recursion on the point: the first slab of a row block
  overwrites it, every later slab adds to what the slab before left. The output block is stored at the last slab of each
  row block only, from the accumulator that slab has just completed; at the other points its buffer is handed back as
  found and nothing is written back to the array. The region's invariant carries the accumulator from one point to the
  next at exactly these contents, so that each point's run applies to what the point before left.
-/
import proofs.«153409_g36782099923439_cont_sun_c4_695_25_alg».proof.Proof.BitsRuns

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves, at a point of the grid -/

/-- At a point where the body stores nothing into the output block the proof data needs SOME contents for it; nothing
    reads them (the block is neither written back there nor read at the next point). -/
def outIdle : Vec F S512x64 .f32 := outV.read (Elt F) outV.junk

/-- The accumulator after a first slab: the run's stores read back. -/
def accAtFirst (c : Dev nD) (t : Fin cfg0.N) (h0 : t.val % 4 = 0) (h3 : ¬t.val % 4 = 3) : Vec F S512x64 .f32 :=
  accV.read (Elt F) (accV.writes (Elt F) accV.junk (runFirst c (grid0.coords t) (ms0 t) (hs0 t) (ms1 t) (hs1 t) (ms2 t) (hs2 t) (ms3 t) (hs3 t) accM (Memref.isWhole_whole _) ((isFirst_iff t).mpr h0) (fun hl => (isLater_iff t).mp hl h0) (fun hl => h3 ((isLast_iff t).mp hl)) (iblk m c 0 t) (iblk m c 1 t) (iblk m c 2 t)).1)
/-- Those stores cover it. -/
theorem accCoverFirst (c : Dev nD) (t : Fin cfg0.N) (h0 : t.val % 4 = 0) (h3 : ¬t.val % 4 = 3) (y : S512x64.Idx) :
    ∃ pc ∈ (runFirst c (grid0.coords t) (ms0 t) (hs0 t) (ms1 t) (hs1 t) (ms2 t) (hs2 t) (ms3 t) (hs3 t) accM (Memref.isWhole_whole _) ((isFirst_iff t).mpr h0) (fun hl => (isLater_iff t).mp hl h0) (fun hl => h3 ((isLast_iff t).mp hl)) (iblk m c 0 t) (iblk m c 1 t) (iblk m c 2 t)).1, y ∈ pc.1.set :=
  View.cover_of_tiledL (runFirst c (grid0.coords t) (ms0 t) (hs0 t) (ms1 t) (hs1 t) (ms2 t) (hs2 t) (ms3 t) (hs3 t) accM (Memref.isWhole_whole _) ((isFirst_iff t).mpr h0) (fun hl => (isLater_iff t).mp hl h0) (fun hl => h3 ((isLast_iff t).mp hl)) (iblk m c 0 t) (iblk m c 1 t) (iblk m c 2 t)).1 S512x64.size (by sl_kernel_rfl) y

/-- The accumulator after a later slab that is not the last, over what the slab before left (`xs`). -/
def accAtLater (c : Dev nD) (t : Fin cfg0.N) (h0 : ¬t.val % 4 = 0) (h3 : ¬t.val % 4 = 3) (xs : Vec F S512x64 .f32) : Vec F S512x64 .f32 :=
  accV.read (Elt F) (accV.writes (Elt F) accV.junk (runLater c (grid0.coords t) (ms0 t) (hs0 t) (ms1 t) (hs1 t) (ms2 t) (hs2 t) (ms3 t) (hs3 t) accM (Memref.isWhole_whole _) (fun hf => h0 ((isFirst_iff t).mp hf)) ((isLater_iff t).mpr h0) (fun hl => h3 ((isLast_iff t).mp hl)) (iblk m c 0 t) (iblk m c 1 t) (iblk m c 2 t) xs).1)
theorem accCoverLater (c : Dev nD) (t : Fin cfg0.N) (h0 : ¬t.val % 4 = 0) (h3 : ¬t.val % 4 = 3) (xs : Vec F S512x64 .f32) (y : S512x64.Idx) :
    ∃ pc ∈ (runLater c (grid0.coords t) (ms0 t) (hs0 t) (ms1 t) (hs1 t) (ms2 t) (hs2 t) (ms3 t) (hs3 t) accM (Memref.isWhole_whole _) (fun hf => h0 ((isFirst_iff t).mp hf)) ((isLater_iff t).mpr h0) (fun hl => h3 ((isLast_iff t).mp hl)) (iblk m c 0 t) (iblk m c 1 t) (iblk m c 2 t) xs).1, y ∈ pc.1.set :=
  View.cover_of_tiledL (runLater c (grid0.coords t) (ms0 t) (hs0 t) (ms1 t) (hs1 t) (ms2 t) (hs2 t) (ms3 t) (hs3 t) accM (Memref.isWhole_whole _) (fun hf => h0 ((isFirst_iff t).mp hf)) ((isLater_iff t).mpr h0) (fun hl => h3 ((isLast_iff t).mp hl)) (iblk m c 0 t) (iblk m c 1 t) (iblk m c 2 t) xs).1 S512x64.size (by sl_kernel_rfl) y

/-- The accumulator after a last slab, over what the slab before left. -/
def accAtLast (c : Dev nD) (t : Fin cfg0.N) (h0 : ¬t.val % 4 = 0) (h3 : t.val % 4 = 3) (xs : Vec F S512x64 .f32) : Vec F S512x64 .f32 :=
  accV.read (Elt F) (accV.writes (Elt F) accV.junk (runLast c (grid0.coords t) (ms0 t) (hs0 t) (ms1 t) (hs1 t) (ms2 t) (hs2 t) (ms3 t) (hs3 t) accM (Memref.isWhole_whole _) (fun hf => h0 ((isFirst_iff t).mp hf)) ((isLater_iff t).mpr h0) ((isLast_iff t).mpr h3) (iblk m c 0 t) (iblk m c 1 t) (iblk m c 2 t) xs).2.1)
theorem accCoverLast (c : Dev nD) (t : Fin cfg0.N) (h0 : ¬t.val % 4 = 0) (h3 : t.val % 4 = 3) (xs : Vec F S512x64 .f32) (y : S512x64.Idx) :
    ∃ pc ∈ (runLast c (grid0.coords t) (ms0 t) (hs0 t) (ms1 t) (hs1 t) (ms2 t) (hs2 t) (ms3 t) (hs3 t) accM (Memref.isWhole_whole _) (fun hf => h0 ((isFirst_iff t).mp hf)) ((isLater_iff t).mpr h0) ((isLast_iff t).mpr h3) (iblk m c 0 t) (iblk m c 1 t) (iblk m c 2 t) xs).2.1, y ∈ pc.1.set :=
  View.cover_of_tiledL (runLast c (grid0.coords t) (ms0 t) (hs0 t) (ms1 t) (hs1 t) (ms2 t) (hs2 t) (ms3 t) (hs3 t) accM (Memref.isWhole_whole _) (fun hf => h0 ((isFirst_iff t).mp hf)) ((isLater_iff t).mpr h0) ((isLast_iff t).mpr h3) (iblk m c 0 t) (iblk m c 1 t) (iblk m c 2 t) xs).2.1 S512x64.size (by sl_kernel_rfl) y
/-- The output block after a last slab. -/
def outAtLast (c : Dev nD) (t : Fin cfg0.N) (h0 : ¬t.val % 4 = 0) (h3 : t.val % 4 = 3) (xs : Vec F S512x64 .f32) : Vec F S512x64 .f32 :=
  outV.read (Elt F) (outV.writes (Elt F) outV.junk (runLast c (grid0.coords t) (ms0 t) (hs0 t) (ms1 t) (hs1 t) (ms2 t) (hs2 t) (ms3 t) (hs3 t) accM (Memref.isWhole_whole _) (fun hf => h0 ((isFirst_iff t).mp hf)) ((isLater_iff t).mpr h0) ((isLast_iff t).mpr h3) (iblk m c 0 t) (iblk m c 1 t) (iblk m c 2 t) xs).1)
theorem outCoverLast (c : Dev nD) (t : Fin cfg0.N) (h0 : ¬t.val % 4 = 0) (h3 : t.val % 4 = 3) (xs : Vec F S512x64 .f32) (y : S512x64.Idx) :
    ∃ pc ∈ (runLast c (grid0.coords t) (ms0 t) (hs0 t) (ms1 t) (hs1 t) (ms2 t) (hs2 t) (ms3 t) (hs3 t) accM (Memref.isWhole_whole _) (fun hf => h0 ((isFirst_iff t).mp hf)) ((isLater_iff t).mpr h0) ((isLast_iff t).mpr h3) (iblk m c 0 t) (iblk m c 1 t) (iblk m c 2 t) xs).1, y ∈ pc.1.set :=
  View.cover_of_tiledL (runLast c (grid0.coords t) (ms0 t) (hs0 t) (ms1 t) (hs1 t) (ms2 t) (hs2 t) (ms3 t) (hs3 t) accM (Memref.isWhole_whole _) (fun hf => h0 ((isFirst_iff t).mp hf)) ((isLater_iff t).mpr h0) ((isLast_iff t).mpr h3) (iblk m c 0 t) (iblk m c 1 t) (iblk m c 2 t) xs).1 S512x64.size (by sl_kernel_rfl) y

/-! ## Point by point -/

/-- The output block and the accumulator after the body at point `n`: by recursion on the point, a slab that is not the
    first of its row block starting from the accumulator the point before left. -/
def stateAt (c : Dev nD) : (n : ℕ) → n < cfg0.N → Vec F S512x64 .f32 × Vec F S512x64 .f32
  | 0, hn => (outIdle, accAtFirst m c ⟨0, hn⟩ (Nat.zero_mod _) (fun h3 => by (try dsimp only at h3); omega))
  | n + 1, hn =>
    if h0 : (n + 1) % 4 = 0 then
      (outIdle, accAtFirst m c ⟨n + 1, hn⟩ h0 (fun h3 => by (try dsimp only at h3 h0); omega))
    else if h3 : (n + 1) % 4 = 3 then
      (outAtLast m c ⟨n + 1, hn⟩ h0 h3 (stateAt c n (Nat.lt_of_succ_lt hn)).2, accAtLast m c ⟨n + 1, hn⟩ h0 h3 (stateAt c n (Nat.lt_of_succ_lt hn)).2)
    else
      (outIdle, accAtLater m c ⟨n + 1, hn⟩ h0 h3 (stateAt c n (Nat.lt_of_succ_lt hn)).2)

theorem stateAt_first (c : Dev nD) (t : Fin cfg0.N) (h0 : t.val % 4 = 0) (h3 : ¬t.val % 4 = 3) :
    stateAt m c t.val t.isLt = (outIdle, accAtFirst m c t h0 h3) := by
  obtain ⟨n, hn⟩ := t
  cases n with
  | zero => exact rfl
  | succ n => exact (dif_pos h0).trans rfl

theorem stateAt_later (c : Dev nD) (t : Fin cfg0.N) (h0 : ¬t.val % 4 = 0) (h3 : ¬t.val % 4 = 3) :
    stateAt m c t.val t.isLt = (outIdle, accAtLater m c t h0 h3 (stateAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h3).trans rfl)

theorem stateAt_last (c : Dev nD) (t : Fin cfg0.N) (h0 : ¬t.val % 4 = 0) (h3 : t.val % 4 = 3) :
    stateAt m c t.val t.isLt = (outAtLast m c t h0 h3 (stateAt m c (t.val - 1) (Nat.lt_of_le_of_lt (Nat.sub_le _ _) t.isLt)).2, accAtLast m c t h0 h3 (stateAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h3).trans rfl)

/-- The region's invariant before position `n`: before the first point the accumulator holds anything; afterwards it
    holds what the point before left. The generator register is at some state throughout. -/
def PhiS (c : Dev nD) : (n : ℕ) → n ≤ cfg0.N → sProp 𝕄
  | 0, _ => Pipeline.ΦA spec0 c
  | n + 1, hn => iprop(iprop(owns (c : Thread nD τ) accM fullShare ((stateAt m c n hn).2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) accM fullShare ((stateAt m c n hn).2)) ∗ (∃ r, prngReg c r)) := rfl
theorem PhiS_pos (c : Dev nD) (n : ℕ) (h : n ≤ cfg0.N) (hz : n ≠ 0) :
    PhiS m c n h = iprop(iprop(owns (c : Thread nD τ) accM fullShare ((stateAt m c (n - 1) (by omega)).2)) ∗ (∃ r, prngReg c r)) := by
  cases n with
  | zero => exact absurd rfl hz
  | succ n => rfl

/-! ## The proof data -/

/-- Core `c`'s proof data: the arrays as the region finds them; after the body each input's buffer still at its block,
    the output's at `stateAt`; the invariant `PhiS`; full shares, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (stateAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_out (c : Dev nD) (t : Fin cfg0.N) : (dats m 0 c).after 3 t = (stateAt m c t.val t.isLt).1 := by dsimp only [dats]

/-- Each input's current staging buffer holds its block at every point, fetched there or not. -/
theorem before_in0 (c : Dev nD) (t : Fin cfg0.N) (d) : (dats m 0 c).before 0 t d = iblk m c 0 t :=
  before0_0_of m (dats m 0 c) (A_eq m c 0) (after_in0 m c) t d
theorem before_in1 (c : Dev nD) (t : Fin cfg0.N) (d) : (dats m 0 c).before 1 t d = iblk m c 1 t :=
  before0_1_of m (dats m 0 c) (A_eq m c 1) (after_in1 m c) t d
theorem before_in2 (c : Dev nD) (t : Fin cfg0.N) (d) : (dats m 0 c).before 2 t d = iblk m c 2 t :=
  before0_2_of m (dats m 0 c) (A_eq m c 2) (after_in2 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves_in0 (c : Dev nD) (t : Fin cfg0.N) :
    (dats m 0 c).leavesExact 0 t = owns (c : Thread nD τ) (ms0 t) fullShare (iblk m c 0 t) := by
  unfold Dat.leavesExact; rw [live_in0 t, after_in0]
theorem leaves_in1 (c : Dev nD) (t : Fin cfg0.N) :
    (dats m 0 c).leavesExact 1 t = owns (c : Thread nD τ) (ms1 t) fullShare (iblk m c 1 t) := by
  unfold Dat.leavesExact; rw [live_in1 t, after_in1]
theorem leaves_in2 (c : Dev nD) (t : Fin cfg0.N) :
    (dats m 0 c).leavesExact 2 t = owns (c : Thread nD τ) (ms2 t) fullShare (iblk m c 2 t) := by
  unfold Dat.leavesExact; rw [live_in2 t, after_in2]

set_option maxHeartbeats 4800000 in
/-- The body at any point. The slab number selects the case; the inputs' buffers hold their blocks; the invariant hands
    the body the accumulator at what the point before left (at anything before the first point, and the first slab of a
    row block needs nothing of it) and takes it back at this point's contents; where the case stores nothing into the
    output block its buffer goes back as found. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2]
  rw [leaves_in0, leaves_in1, leaves_in2]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  by_cases h0 : t.val % 4 = 0
  · have h3 : ¬t.val % 4 = 3 := by omega
    rw [Dat.leavesExact_idle (dats m 0 c) 3 t (idle_out t (fun hl => h3 ((isLast_iff t).mp hl))) (noFlush_out t (fun hl => h3 ((isLast_iff t).mp hl)))]
    rw [stateAt_first m c t h0 h3]
    unfold accAtFirst; (try dsimp only)
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩⟩
      iapply ((runFirst c (grid0.coords t) (ms0 t) (hs0 t) (ms1 t) (hs1 t) (ms2 t) (hs2 t) (ms3 t) (hs3 t) accM (Memref.isWhole_whole _) ((isFirst_iff t).mpr h0) (fun hl => (isLater_iff t).mp hl h0) (fun hl => h3 ((isLast_iff t).mp hl)) (iblk m c 0 t) (iblk m c 1 t) (iblk m c 2 t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hg]
      · isplitl [HS]
        · unfold owns; iexists _; isplitr
          swap; · iexact HS
          ipureintro; exact View.read_writes_of_cover _ _ _ _ _ (accCoverFirst m c t h0 h3)
        iexact Hg
      isplitl [Ho]; · iexact Ho
      isplitl [H0]; · iexact H0
      isplitl [H1]; · iexact H1
      isplitl [H2]; · iexact H2
      iexists _; iexact H3
    · rw [PhiS_castSucc m c t, PhiS_pos m c _ _ hz]
      iintro ⟨⟨HS, Hg⟩, Ho, ⟨%d0, H0⟩, ⟨%d1, H1⟩, ⟨%d2, H2⟩, ⟨%d3, H3⟩⟩
      iapply ((runFirst c (grid0.coords t) (ms0 t) (hs0 t) (ms1 t) (hs1 t) (ms2 t) (hs2 t) (ms3 t) (hs3 t) accM (Memref.isWhole_whole _) ((isFirst_iff t).mpr h0) (fun hl => (isLater_iff t).mp hl h0) (fun hl => h3 ((isLast_iff t).mp hl)) (iblk m c 0 t) (iblk m c 1 t) (iblk m c 2 t)).2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hg]
      · isplitl [HS]
        · unfold owns; iexists _; isplitr
          swap; · iexact HS
          ipureintro; exact View.read_writes_of_cover _ _ _ _ _ (accCoverFirst m c t h0 h3)
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h3 : t.val % 4 = 3
    · rw [show (dats m 0 c).leavesExact 3 t = owns (c : Thread nD τ) (ms3 t) fullShare ((dats m 0 c).after 3 t) from by
        unfold Dat.leavesExact; rw [live_out t ((isLast_iff t).mpr h3)], after_out]
      rw [stateAt_last m c t h0 h3]
      unfold outAtLast accAtLast; (try dsimp only)
      rw [PhiS_castSucc m c t, PhiS_pos m c _ _ hz]
      iintro ⟨⟨HS, Hg⟩, Ho, ⟨%d0, H0⟩, ⟨%d1, H1⟩, ⟨%d2, H2⟩, ⟨%d3, H3⟩⟩
      iapply ((runLast c (grid0.coords t) (ms0 t) (hs0 t) (ms1 t) (hs1 t) (ms2 t) (hs2 t) (ms3 t) (hs3 t) accM (Memref.isWhole_whole _) (fun hf => h0 ((isFirst_iff t).mp hf)) ((isLater_iff t).mpr h0) ((isLast_iff t).mpr h3) (iblk m c 0 t) (iblk m c 1 t) (iblk m c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hg]
      · isplitl [HS]
        · unfold owns; iexists _; isplitr
          swap; · iexact HS
          ipureintro; exact View.read_writes_of_cover _ _ _ _ _ (accCoverLast m c t h0 h3 _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (outCoverLast m c t h0 h3 _)
    · rw [Dat.leavesExact_idle (dats m 0 c) 3 t (idle_out t (fun hl => h3 ((isLast_iff t).mp hl))) (noFlush_out t (fun hl => h3 ((isLast_iff t).mp hl)))]
      rw [stateAt_later m c t h0 h3]
      unfold accAtLater; (try dsimp only)
      rw [PhiS_castSucc m c t, PhiS_pos m c _ _ hz]
      iintro ⟨⟨HS, Hg⟩, Ho, ⟨%d0, H0⟩, ⟨%d1, H1⟩, ⟨%d2, H2⟩, ⟨%d3, H3⟩⟩
      iapply ((runLater c (grid0.coords t) (ms0 t) (hs0 t) (ms1 t) (hs1 t) (ms2 t) (hs2 t) (ms3 t) (hs3 t) accM (Memref.isWhole_whole _) (fun hf => h0 ((isFirst_iff t).mp hf)) ((isLater_iff t).mpr h0) (fun hl => h3 ((isLast_iff t).mp hl)) (iblk m c 0 t) (iblk m c 1 t) (iblk m c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hg]
      · isplitl [HS]
        · unfold owns; iexists _; isplitr
          swap; · iexact HS
          ipureintro; exact View.read_writes_of_cover _ _ _ _ _ (accCoverLater m c t h0 h3 _)
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back: the accumulator's contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 256 := N_0; omega), PhiA_eq]
  iintro ⟨HS, Hg⟩
  isplitl [HS]
  · iexists _; iexact HS
  iexact Hg

/-! ## The run and the frame -/

set_option backward.isDefEq.respectTransparency.types false in
/-- From any memory with zero counters every weakly fair execution of the program terminates, faulting nowhere, with
    every array of the region at what the library computes from the proof data and every other buffer as launched. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hin := hin m) (hout := hout m)

/-- The frame: the arguments end as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Body

end
-- ==== Proof.IdealShared.lean ====
/-
  The router kernel's body, point by point: what its three conditionals depend on.

  The grid is 64 row blocks by 4 slabs of the contracted axis, walked row block by row block, so point `t`
  is slab `t % 4` of row block `t / 4`. The body's three conditionals test the slab number only: the first
  slab of a row block (the accumulator is overwritten by the slab's partial product), a later slab (the partial
  product is added to the accumulator), the last slab (bias, row maximum, exponentials, normalisation, and the
  only store into the output block). This module decides the three conditions over the 256 points, says at
  which points the output window is idle, and names the buffers the body is handed.
-/
import proofs.«153409_g36782099923439_cont_sun_c4_695_25_alg».proof.Proof.Gen.KernelIdeal.Launch
import proofs.«153409_g36782099923439_cont_sun_c4_695_25_alg».proof.Proof.Gen.KernelIdeal.Skeleton
import proofs.«153409_g36782099923439_cont_sun_c4_695_25_alg».proof.Proof.Gen.KernelIdeal.Points
import proofs.«153409_g36782099923439_cont_sun_c4_695_25_alg».proof.Proof.Gen.KernelIdeal.Frame
import Idealize.ShloMosaic.Lib.Pipeline.FrameBody
import Idealize.ShloMosaic.Lib.Ring
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The three conditions, as functions of the point -/

/-- The slab is the first of its row block (the body's first conditional, as the body computes it). -/
abbrev isFirst (i : grid0.Coords) : Prop :=
  (Scalar.cmpi .ne (Scalar.extui (Scalar.cmpi .eq (BitVec.ofNat 32 (i 1).val) 0#32)) 0#32) = 1#1
/-- It holds exactly at the points whose number is a multiple of 4. -/
theorem isFirst_iff : ∀ t : Fin cfg0.N, isFirst (grid0.coords t) ↔ t.val % 4 = 0 :=
  (by decide +kernel : ∀ t : Fin grid0.N, isFirst (grid0.coords t) ↔ t.val % 4 = 0)

/-- The slab is not the first of its row block (the body's second conditional). -/
abbrev isLater (i : grid0.Coords) : Prop :=
  (Scalar.cmpi .ne (Scalar.extui (Scalar.cmpi .ne (BitVec.ofNat 32 (i 1).val) 0#32)) 0#32) = 1#1
/-- It holds exactly at the other points. -/
theorem isLater_iff : ∀ t : Fin cfg0.N, isLater (grid0.coords t) ↔ t.val % 4 ≠ 0 :=
  (by decide +kernel : ∀ t : Fin grid0.N, isLater (grid0.coords t) ↔ t.val % 4 ≠ 0)

/-- The slab is the last of its row block (the body's third conditional). -/
abbrev isLast (i : grid0.Coords) : Prop := k0_cond3 i = 1#1
/-- It holds exactly at the points congruent to 3 modulo 4. -/
theorem isLast_iff : ∀ t : Fin cfg0.N, isLast (grid0.coords t) ↔ t.val % 4 = 3 :=
  (by decide +kernel : ∀ t : Fin grid0.N, isLast (grid0.coords t) ↔ t.val % 4 = 3)

/-! ## Where the windows are idle -/

/-- The three input windows are never idle. -/
theorem live_in0 : ∀ t : Fin cfg0.N, cfg0.idle 0 (grid0.coords t) = false := by decide +kernel
theorem live_in1 : ∀ t : Fin cfg0.N, cfg0.idle 1 (grid0.coords t) = false := by decide +kernel
theorem live_in2 : ∀ t : Fin cfg0.N, cfg0.idle 2 (grid0.coords t) = false := by decide +kernel
/-- Off the last slab the output window is idle (nothing is stored into its block) -/
theorem idle_out : ∀ t : Fin cfg0.N, ¬isLast (grid0.coords t) → cfg0.idle 3 (grid0.coords t) = true := by decide +kernel
/-- and its block is not written back there; -/
theorem noFlush_out : ∀ t : Fin cfg0.N, ¬isLast (grid0.coords t) → (cfg0.win 3).flush t = false := by decide +kernel
/-- at the last slab it is live. -/
theorem live_out : ∀ t : Fin cfg0.N, isLast (grid0.coords t) → cfg0.idle 3 (grid0.coords t) = false := by decide +kernel

/-! ## The buffers the body is handed -/

/-- Each window's current staging buffer at point `t`, and that it is a whole buffer. -/
abbrev ms0 (t : Fin cfg0.N) : Memref sig .tc .vmem S512x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x64 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x64 .f32 := win0_3.stage (cfg0.slots t 3)
abbrev hs3 (t : Fin cfg0.N) : (ms3 t).IsWhole := hstage0_3 ((cfg0.slots t 3).cast nbuf0_3)
/-- The accumulator: a whole buffer of the kernel's own, kept from one point to the next. -/
abbrev accM : Memref sig .tc .vmem S512x64 .f32 := Memref.whole cc0_scratch0
/-- The accumulator and one staging buffer of the output window as views: contents are stated through them. -/
abbrev accV : View sig .tc .vmem S512x64 .f32 := accM.view
abbrev outV : View sig .tc .vmem S512x64 .f32 := (Memref.whole cc0_stg3_0 : Memref sig .tc .vmem S512x64 .f32).view

/-- What the region lends the body besides the windows: the accumulator at some contents, and the generator
    register at some state. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.KernelIdeal.Body

end
-- ==== Proof.IdealRuns.lean ====
/-
  The router kernel's body run once per case of its conditionals, on any whole staging buffers.

  Three cases meet the grid. At the FIRST slab of a row block the body loads the two operand blocks and overwrites the
  accumulator with their product. At a LATER slab that is not the last it loads the accumulator and stores it back with
  the slab's product added. At the LAST slab it does that and then loads the accumulator again, loads the bias block,
  and stores the normalised exponentials into the output block. Each run is stated with the list of stores it leaves
  in each buffer it writes (found while the body is run), the buffers it only reads handed back as they were, and the
  output block handed back untouched where the case stores nothing into it.
-/
import proofs.«153409_g36782099923439_cont_sun_c4_695_25_alg».proof.Proof.IdealShared

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The first slab of a row block: the accumulator, at anything before, ends with the listed stores written; the output
    block is handed back as it was found. -/
noncomputable def runFirst (c : Dev nD) (i : grid0.Coords) (arg2 : Memref sig .tc .vmem S512x1024 .f32) (harg2 : arg2.IsWhole) (arg3 : Memref sig .tc .vmem S1024x64 .f32) (harg3 : arg3.IsWhole) (arg4 : Memref sig .tc .vmem S64 .f32) (harg4 : arg4.IsWhole) (arg5 : Memref sig .tc .vmem S512x64 .f32) (harg5 : arg5.IsWhole) (arg6 : Memref sig .tc .vmem S512x64 .f32) (harg6 : arg6.IsWhole)
    (hc0 : isFirst i) (hc1 : ¬isLater i) (hc2 : ¬isLast i)
    (x0 : Vec F S512x1024 .f32) (x1 : Vec F S1024x64 .f32) (x2 : Vec F S64 .f32) :
    { LS : List (View.Piece (Elt F) S512x64 .f32) //
      ∀ (xi3 : Vec F S512x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc0__router_block i arg2 harg2 arg3 harg3 arg4 harg4 arg5 harg5 arg6 harg6) K } := by
  refine ⟨?_, fun xi3 E K => ?run⟩
  case run =>
    simp only [cc0__router_block_eq_skeleton]; unfold cc0__router_block_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1000000 in
/-- A later slab that is not the last: the accumulator, at `xs` before, ends with the listed stores written; the output
    block is handed back as it was found. -/
noncomputable def runLater (c : Dev nD) (i : grid0.Coords) (arg2 : Memref sig .tc .vmem S512x1024 .f32) (harg2 : arg2.IsWhole) (arg3 : Memref sig .tc .vmem S1024x64 .f32) (harg3 : arg3.IsWhole) (arg4 : Memref sig .tc .vmem S64 .f32) (harg4 : arg4.IsWhole) (arg5 : Memref sig .tc .vmem S512x64 .f32) (harg5 : arg5.IsWhole) (arg6 : Memref sig .tc .vmem S512x64 .f32) (harg6 : arg6.IsWhole)
    (hc0 : ¬isFirst i) (hc1 : isLater i) (hc2 : ¬isLast i)
    (x0 : Vec F S512x1024 .f32) (x1 : Vec F S1024x64 .f32) (x2 : Vec F S64 .f32) (xs : Vec F S512x64 .f32) :
    { LS : List (View.Piece (Elt F) S512x64 .f32) //
      ∀ (xi3 : Vec F S512x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc0__router_block i arg2 harg2 arg3 harg3 arg4 harg4 arg5 harg5 arg6 harg6) K } := by
  refine ⟨?_, fun xi3 E K => ?run⟩
  case run =>
    simp only [cc0__router_block_eq_skeleton]; unfold cc0__router_block_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

set_option maxHeartbeats 1000000 in
/-- The last slab of a row block: the accumulator, at `xs` before, and the output block, at anything before, each end
    with the listed stores written. -/
noncomputable def runLast (c : Dev nD) (i : grid0.Coords) (arg2 : Memref sig .tc .vmem S512x1024 .f32) (harg2 : arg2.IsWhole) (arg3 : Memref sig .tc .vmem S1024x64 .f32) (harg3 : arg3.IsWhole) (arg4 : Memref sig .tc .vmem S64 .f32) (harg4 : arg4.IsWhole) (arg5 : Memref sig .tc .vmem S512x64 .f32) (harg5 : arg5.IsWhole) (arg6 : Memref sig .tc .vmem S512x64 .f32) (harg6 : arg6.IsWhole)
    (hc0 : ¬isFirst i) (hc1 : isLater i) (hc2 : isLast i)
    (x0 : Vec F S512x1024 .f32) (x1 : Vec F S1024x64 .f32) (x2 : Vec F S64 .f32) (xs : Vec F S512x64 .f32) :
    Σ' (L3 : List (View.Piece (Elt F) S512x64 .f32)), { LS : List (View.Piece (Elt F) S512x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc0__router_block i arg2 harg2 arg3 harg3 arg4 harg4 arg5 harg5 arg6 harg6) K } := by
  refine ⟨?_, ?_, fun E K => ?run⟩
  case run =>
    simp only [cc0__router_block_eq_skeleton]; unfold cc0__router_block_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.KernelIdeal.Body

end
-- ==== Proof.IdealFrame.lean ====
/-
  The router kernel's frame: every execution of the program ends, faults nowhere, and leaves its arguments as they were.

  What the accumulator holds after each point is defined by recursion on the point: the first slab of a row block
  overwrites it, every later slab adds to what the slab before left. The output block is stored at the last slab of each
  row block only, from the accumulator that slab has just completed; at the other points its buffer is handed back as
  found and nothing is written back to the array. The region's invariant carries the accumulator from one point to the
  next at exactly these contents, so that each point's run applies to what the point before left.
-/
import proofs.«153409_g36782099923439_cont_sun_c4_695_25_alg».proof.Proof.IdealRuns

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves, at a point of the grid -/

/-- At a point where the body stores nothing into the output block the proof data needs SOME contents for it; nothing
    reads them (the block is neither written back there nor read at the next point). -/
def outIdle : Vec F S512x64 .f32 := outV.read (Elt F) outV.junk

/-- The accumulator after a first slab: the run's stores read back. -/
def accAtFirst (c : Dev nD) (t : Fin cfg0.N) (h0 : t.val % 4 = 0) (h3 : ¬t.val % 4 = 3) : Vec F S512x64 .f32 :=
  accV.read (Elt F) (accV.writes (Elt F) accV.junk (runFirst c (grid0.coords t) (ms0 t) (hs0 t) (ms1 t) (hs1 t) (ms2 t) (hs2 t) (ms3 t) (hs3 t) accM (Memref.isWhole_whole _) ((isFirst_iff t).mpr h0) (fun hl => (isLater_iff t).mp hl h0) (fun hl => h3 ((isLast_iff t).mp hl)) (iblk m c 0 t) (iblk m c 1 t) (iblk m c 2 t)).1)
/-- Those stores cover it. -/
theorem accCoverFirst (c : Dev nD) (t : Fin cfg0.N) (h0 : t.val % 4 = 0) (h3 : ¬t.val % 4 = 3) (y : S512x64.Idx) :
    ∃ pc ∈ (runFirst c (grid0.coords t) (ms0 t) (hs0 t) (ms1 t) (hs1 t) (ms2 t) (hs2 t) (ms3 t) (hs3 t) accM (Memref.isWhole_whole _) ((isFirst_iff t).mpr h0) (fun hl => (isLater_iff t).mp hl h0) (fun hl => h3 ((isLast_iff t).mp hl)) (iblk m c 0 t) (iblk m c 1 t) (iblk m c 2 t)).1, y ∈ pc.1.set :=
  View.cover_of_tiledL (runFirst c (grid0.coords t) (ms0 t) (hs0 t) (ms1 t) (hs1 t) (ms2 t) (hs2 t) (ms3 t) (hs3 t) accM (Memref.isWhole_whole _) ((isFirst_iff t).mpr h0) (fun hl => (isLater_iff t).mp hl h0) (fun hl => h3 ((isLast_iff t).mp hl)) (iblk m c 0 t) (iblk m c 1 t) (iblk m c 2 t)).1 S512x64.size (by sl_kernel_rfl) y

/-- The accumulator after a later slab that is not the last, over what the slab before left (`xs`). -/
def accAtLater (c : Dev nD) (t : Fin cfg0.N) (h0 : ¬t.val % 4 = 0) (h3 : ¬t.val % 4 = 3) (xs : Vec F S512x64 .f32) : Vec F S512x64 .f32 :=
  accV.read (Elt F) (accV.writes (Elt F) accV.junk (runLater c (grid0.coords t) (ms0 t) (hs0 t) (ms1 t) (hs1 t) (ms2 t) (hs2 t) (ms3 t) (hs3 t) accM (Memref.isWhole_whole _) (fun hf => h0 ((isFirst_iff t).mp hf)) ((isLater_iff t).mpr h0) (fun hl => h3 ((isLast_iff t).mp hl)) (iblk m c 0 t) (iblk m c 1 t) (iblk m c 2 t) xs).1)
theorem accCoverLater (c : Dev nD) (t : Fin cfg0.N) (h0 : ¬t.val % 4 = 0) (h3 : ¬t.val % 4 = 3) (xs : Vec F S512x64 .f32) (y : S512x64.Idx) :
    ∃ pc ∈ (runLater c (grid0.coords t) (ms0 t) (hs0 t) (ms1 t) (hs1 t) (ms2 t) (hs2 t) (ms3 t) (hs3 t) accM (Memref.isWhole_whole _) (fun hf => h0 ((isFirst_iff t).mp hf)) ((isLater_iff t).mpr h0) (fun hl => h3 ((isLast_iff t).mp hl)) (iblk m c 0 t) (iblk m c 1 t) (iblk m c 2 t) xs).1, y ∈ pc.1.set :=
  View.cover_of_tiledL (runLater c (grid0.coords t) (ms0 t) (hs0 t) (ms1 t) (hs1 t) (ms2 t) (hs2 t) (ms3 t) (hs3 t) accM (Memref.isWhole_whole _) (fun hf => h0 ((isFirst_iff t).mp hf)) ((isLater_iff t).mpr h0) (fun hl => h3 ((isLast_iff t).mp hl)) (iblk m c 0 t) (iblk m c 1 t) (iblk m c 2 t) xs).1 S512x64.size (by sl_kernel_rfl) y

/-- The accumulator after a last slab, over what the slab before left. -/
def accAtLast (c : Dev nD) (t : Fin cfg0.N) (h0 : ¬t.val % 4 = 0) (h3 : t.val % 4 = 3) (xs : Vec F S512x64 .f32) : Vec F S512x64 .f32 :=
  accV.read (Elt F) (accV.writes (Elt F) accV.junk (runLast c (grid0.coords t) (ms0 t) (hs0 t) (ms1 t) (hs1 t) (ms2 t) (hs2 t) (ms3 t) (hs3 t) accM (Memref.isWhole_whole _) (fun hf => h0 ((isFirst_iff t).mp hf)) ((isLater_iff t).mpr h0) ((isLast_iff t).mpr h3) (iblk m c 0 t) (iblk m c 1 t) (iblk m c 2 t) xs).2.1)
theorem accCoverLast (c : Dev nD) (t : Fin cfg0.N) (h0 : ¬t.val % 4 = 0) (h3 : t.val % 4 = 3) (xs : Vec F S512x64 .f32) (y : S512x64.Idx) :
    ∃ pc ∈ (runLast c (grid0.coords t) (ms0 t) (hs0 t) (ms1 t) (hs1 t) (ms2 t) (hs2 t) (ms3 t) (hs3 t) accM (Memref.isWhole_whole _) (fun hf => h0 ((isFirst_iff t).mp hf)) ((isLater_iff t).mpr h0) ((isLast_iff t).mpr h3) (iblk m c 0 t) (iblk m c 1 t) (iblk m c 2 t) xs).2.1, y ∈ pc.1.set :=
  View.cover_of_tiledL (runLast c (grid0.coords t) (ms0 t) (hs0 t) (ms1 t) (hs1 t) (ms2 t) (hs2 t) (ms3 t) (hs3 t) accM (Memref.isWhole_whole _) (fun hf => h0 ((isFirst_iff t).mp hf)) ((isLater_iff t).mpr h0) ((isLast_iff t).mpr h3) (iblk m c 0 t) (iblk m c 1 t) (iblk m c 2 t) xs).2.1 S512x64.size (by sl_kernel_rfl) y
/-- The output block after a last slab. -/
def outAtLast (c : Dev nD) (t : Fin cfg0.N) (h0 : ¬t.val % 4 = 0) (h3 : t.val % 4 = 3) (xs : Vec F S512x64 .f32) : Vec F S512x64 .f32 :=
  outV.read (Elt F) (outV.writes (Elt F) outV.junk (runLast c (grid0.coords t) (ms0 t) (hs0 t) (ms1 t) (hs1 t) (ms2 t) (hs2 t) (ms3 t) (hs3 t) accM (Memref.isWhole_whole _) (fun hf => h0 ((isFirst_iff t).mp hf)) ((isLater_iff t).mpr h0) ((isLast_iff t).mpr h3) (iblk m c 0 t) (iblk m c 1 t) (iblk m c 2 t) xs).1)
theorem outCoverLast (c : Dev nD) (t : Fin cfg0.N) (h0 : ¬t.val % 4 = 0) (h3 : t.val % 4 = 3) (xs : Vec F S512x64 .f32) (y : S512x64.Idx) :
    ∃ pc ∈ (runLast c (grid0.coords t) (ms0 t) (hs0 t) (ms1 t) (hs1 t) (ms2 t) (hs2 t) (ms3 t) (hs3 t) accM (Memref.isWhole_whole _) (fun hf => h0 ((isFirst_iff t).mp hf)) ((isLater_iff t).mpr h0) ((isLast_iff t).mpr h3) (iblk m c 0 t) (iblk m c 1 t) (iblk m c 2 t) xs).1, y ∈ pc.1.set :=
  View.cover_of_tiledL (runLast c (grid0.coords t) (ms0 t) (hs0 t) (ms1 t) (hs1 t) (ms2 t) (hs2 t) (ms3 t) (hs3 t) accM (Memref.isWhole_whole _) (fun hf => h0 ((isFirst_iff t).mp hf)) ((isLater_iff t).mpr h0) ((isLast_iff t).mpr h3) (iblk m c 0 t) (iblk m c 1 t) (iblk m c 2 t) xs).1 S512x64.size (by sl_kernel_rfl) y

/-! ## Point by point -/

/-- The output block and the accumulator after the body at point `n`: by recursion on the point, a slab that is not the
    first of its row block starting from the accumulator the point before left. -/
def stateAt (c : Dev nD) : (n : ℕ) → n < cfg0.N → Vec F S512x64 .f32 × Vec F S512x64 .f32
  | 0, hn => (outIdle, accAtFirst m c ⟨0, hn⟩ (Nat.zero_mod _) (fun h3 => by (try dsimp only at h3); omega))
  | n + 1, hn =>
    if h0 : (n + 1) % 4 = 0 then
      (outIdle, accAtFirst m c ⟨n + 1, hn⟩ h0 (fun h3 => by (try dsimp only at h3 h0); omega))
    else if h3 : (n + 1) % 4 = 3 then
      (outAtLast m c ⟨n + 1, hn⟩ h0 h3 (stateAt c n (Nat.lt_of_succ_lt hn)).2, accAtLast m c ⟨n + 1, hn⟩ h0 h3 (stateAt c n (Nat.lt_of_succ_lt hn)).2)
    else
      (outIdle, accAtLater m c ⟨n + 1, hn⟩ h0 h3 (stateAt c n (Nat.lt_of_succ_lt hn)).2)

theorem stateAt_first (c : Dev nD) (t : Fin cfg0.N) (h0 : t.val % 4 = 0) (h3 : ¬t.val % 4 = 3) :
    stateAt m c t.val t.isLt = (outIdle, accAtFirst m c t h0 h3) := by
  obtain ⟨n, hn⟩ := t
  cases n with
  | zero => exact rfl
  | succ n => exact (dif_pos h0).trans rfl

theorem stateAt_later (c : Dev nD) (t : Fin cfg0.N) (h0 : ¬t.val % 4 = 0) (h3 : ¬t.val % 4 = 3) :
    stateAt m c t.val t.isLt = (outIdle, accAtLater m c t h0 h3 (stateAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h3).trans rfl)

theorem stateAt_last (c : Dev nD) (t : Fin cfg0.N) (h0 : ¬t.val % 4 = 0) (h3 : t.val % 4 = 3) :
    stateAt m c t.val t.isLt = (outAtLast m c t h0 h3 (stateAt m c (t.val - 1) (Nat.lt_of_le_of_lt (Nat.sub_le _ _) t.isLt)).2, accAtLast m c t h0 h3 (stateAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h3).trans rfl)

/-- The region's invariant before position `n`: before the first point the accumulator holds anything; afterwards it
    holds what the point before left. The generator register is at some state throughout. -/
def PhiS (c : Dev nD) : (n : ℕ) → n ≤ cfg0.N → sProp 𝕄
  | 0, _ => Pipeline.ΦA spec0 c
  | n + 1, hn => iprop(iprop(owns (c : Thread nD τ) accM fullShare ((stateAt m c n hn).2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) accM fullShare ((stateAt m c n hn).2)) ∗ (∃ r, prngReg c r)) := rfl
theorem PhiS_pos (c : Dev nD) (n : ℕ) (h : n ≤ cfg0.N) (hz : n ≠ 0) :
    PhiS m c n h = iprop(iprop(owns (c : Thread nD τ) accM fullShare ((stateAt m c (n - 1) (by omega)).2)) ∗ (∃ r, prngReg c r)) := by
  cases n with
  | zero => exact absurd rfl hz
  | succ n => rfl

/-! ## The proof data -/

/-- Core `c`'s proof data: the arrays as the region finds them; after the body each input's buffer still at its block,
    the output's at `stateAt`; the invariant `PhiS`; full shares, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (stateAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_out (c : Dev nD) (t : Fin cfg0.N) : (dats m 0 c).after 3 t = (stateAt m c t.val t.isLt).1 := by dsimp only [dats]

/-- Each input's current staging buffer holds its block at every point, fetched there or not. -/
theorem before_in0 (c : Dev nD) (t : Fin cfg0.N) (d) : (dats m 0 c).before 0 t d = iblk m c 0 t :=
  before0_0_of m (dats m 0 c) (A_eq m c 0) (after_in0 m c) t d
theorem before_in1 (c : Dev nD) (t : Fin cfg0.N) (d) : (dats m 0 c).before 1 t d = iblk m c 1 t :=
  before0_1_of m (dats m 0 c) (A_eq m c 1) (after_in1 m c) t d
theorem before_in2 (c : Dev nD) (t : Fin cfg0.N) (d) : (dats m 0 c).before 2 t d = iblk m c 2 t :=
  before0_2_of m (dats m 0 c) (A_eq m c 2) (after_in2 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves_in0 (c : Dev nD) (t : Fin cfg0.N) :
    (dats m 0 c).leavesExact 0 t = owns (c : Thread nD τ) (ms0 t) fullShare (iblk m c 0 t) := by
  unfold Dat.leavesExact; rw [live_in0 t, after_in0]
theorem leaves_in1 (c : Dev nD) (t : Fin cfg0.N) :
    (dats m 0 c).leavesExact 1 t = owns (c : Thread nD τ) (ms1 t) fullShare (iblk m c 1 t) := by
  unfold Dat.leavesExact; rw [live_in1 t, after_in1]
theorem leaves_in2 (c : Dev nD) (t : Fin cfg0.N) :
    (dats m 0 c).leavesExact 2 t = owns (c : Thread nD τ) (ms2 t) fullShare (iblk m c 2 t) := by
  unfold Dat.leavesExact; rw [live_in2 t, after_in2]

set_option maxHeartbeats 4800000 in
/-- The body at any point. The slab number selects the case; the inputs' buffers hold their blocks; the invariant hands
    the body the accumulator at what the point before left (at anything before the first point, and the first slab of a
    row block needs nothing of it) and takes it back at this point's contents; where the case stores nothing into the
    output block its buffer goes back as found. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2]
  rw [leaves_in0, leaves_in1, leaves_in2]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  by_cases h0 : t.val % 4 = 0
  · have h3 : ¬t.val % 4 = 3 := by omega
    rw [Dat.leavesExact_idle (dats m 0 c) 3 t (idle_out t (fun hl => h3 ((isLast_iff t).mp hl))) (noFlush_out t (fun hl => h3 ((isLast_iff t).mp hl)))]
    rw [stateAt_first m c t h0 h3]
    unfold accAtFirst; (try dsimp only)
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩⟩
      iapply ((runFirst c (grid0.coords t) (ms0 t) (hs0 t) (ms1 t) (hs1 t) (ms2 t) (hs2 t) (ms3 t) (hs3 t) accM (Memref.isWhole_whole _) ((isFirst_iff t).mpr h0) (fun hl => (isLater_iff t).mp hl h0) (fun hl => h3 ((isLast_iff t).mp hl)) (iblk m c 0 t) (iblk m c 1 t) (iblk m c 2 t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hg]
      · isplitl [HS]
        · unfold owns; iexists _; isplitr
          swap; · iexact HS
          ipureintro; exact View.read_writes_of_cover _ _ _ _ _ (accCoverFirst m c t h0 h3)
        iexact Hg
      isplitl [Ho]; · iexact Ho
      isplitl [H0]; · iexact H0
      isplitl [H1]; · iexact H1
      isplitl [H2]; · iexact H2
      iexists _; iexact H3
    · rw [PhiS_castSucc m c t, PhiS_pos m c _ _ hz]
      iintro ⟨⟨HS, Hg⟩, Ho, ⟨%d0, H0⟩, ⟨%d1, H1⟩, ⟨%d2, H2⟩, ⟨%d3, H3⟩⟩
      iapply ((runFirst c (grid0.coords t) (ms0 t) (hs0 t) (ms1 t) (hs1 t) (ms2 t) (hs2 t) (ms3 t) (hs3 t) accM (Memref.isWhole_whole _) ((isFirst_iff t).mpr h0) (fun hl => (isLater_iff t).mp hl h0) (fun hl => h3 ((isLast_iff t).mp hl)) (iblk m c 0 t) (iblk m c 1 t) (iblk m c 2 t)).2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hg]
      · isplitl [HS]
        · unfold owns; iexists _; isplitr
          swap; · iexact HS
          ipureintro; exact View.read_writes_of_cover _ _ _ _ _ (accCoverFirst m c t h0 h3)
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h3 : t.val % 4 = 3
    · rw [show (dats m 0 c).leavesExact 3 t = owns (c : Thread nD τ) (ms3 t) fullShare ((dats m 0 c).after 3 t) from by
        unfold Dat.leavesExact; rw [live_out t ((isLast_iff t).mpr h3)], after_out]
      rw [stateAt_last m c t h0 h3]
      unfold outAtLast accAtLast; (try dsimp only)
      rw [PhiS_castSucc m c t, PhiS_pos m c _ _ hz]
      iintro ⟨⟨HS, Hg⟩, Ho, ⟨%d0, H0⟩, ⟨%d1, H1⟩, ⟨%d2, H2⟩, ⟨%d3, H3⟩⟩
      iapply ((runLast c (grid0.coords t) (ms0 t) (hs0 t) (ms1 t) (hs1 t) (ms2 t) (hs2 t) (ms3 t) (hs3 t) accM (Memref.isWhole_whole _) (fun hf => h0 ((isFirst_iff t).mp hf)) ((isLater_iff t).mpr h0) ((isLast_iff t).mpr h3) (iblk m c 0 t) (iblk m c 1 t) (iblk m c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hg]
      · isplitl [HS]
        · unfold owns; iexists _; isplitr
          swap; · iexact HS
          ipureintro; exact View.read_writes_of_cover _ _ _ _ _ (accCoverLast m c t h0 h3 _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (outCoverLast m c t h0 h3 _)
    · rw [Dat.leavesExact_idle (dats m 0 c) 3 t (idle_out t (fun hl => h3 ((isLast_iff t).mp hl))) (noFlush_out t (fun hl => h3 ((isLast_iff t).mp hl)))]
      rw [stateAt_later m c t h0 h3]
      unfold accAtLater; (try dsimp only)
      rw [PhiS_castSucc m c t, PhiS_pos m c _ _ hz]
      iintro ⟨⟨HS, Hg⟩, Ho, ⟨%d0, H0⟩, ⟨%d1, H1⟩, ⟨%d2, H2⟩, ⟨%d3, H3⟩⟩
      iapply ((runLater c (grid0.coords t) (ms0 t) (hs0 t) (ms1 t) (hs1 t) (ms2 t) (hs2 t) (ms3 t) (hs3 t) accM (Memref.isWhole_whole _) (fun hf => h0 ((isFirst_iff t).mp hf)) ((isLater_iff t).mpr h0) (fun hl => h3 ((isLast_iff t).mp hl)) (iblk m c 0 t) (iblk m c 1 t) (iblk m c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hg]
      · isplitl [HS]
        · unfold owns; iexists _; isplitr
          swap; · iexact HS
          ipureintro; exact View.read_writes_of_cover _ _ _ _ _ (accCoverLater m c t h0 h3 _)
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back: the accumulator's contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 256 := N_0; omega), PhiA_eq]
  iintro ⟨HS, Hg⟩
  isplitl [HS]
  · iexists _; iexact HS
  iexact Hg

/-! ## The run and the frame -/

set_option backward.isDefEq.respectTransparency.types false in
/-- From any memory with zero counters every weakly fair execution of the program terminates, faulting nowhere, with
    every array of the region at what the library computes from the proof data and every other buffer as launched. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hin := hin m) (hout := hout m)

/-- The frame: the arguments end as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Body

end
-- ==== Proof.IdealPieces.lean ====
/-
  What each case of the router kernel's body leaves, as values of the blocks it was handed.

  Every store of the body covers its whole buffer, so what a buffer holds afterwards is the stored value, and every load
  reads a whole buffer, so the value is computed from the buffers' contents themselves. At the first slab the accumulator
  ends at the slab's product; at a later slab at what it held plus the slab's product; at the last slab the output block
  ends at the normalised exponentials of that completed accumulator plus the bias.
-/
import proofs.«153409_g36782099923439_cont_sun_c4_695_25_alg».proof.Proof.IdealFrame
import Idealize.ShloMosaic.Lib.Pipeline.Value
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem origin2 : (![0, 0] : Fin 2 → Nat) = fun _ => 0 := funext fun a => by fin_cases a <;> rfl
theorem origin1 : (![0] : Fin 1 → Nat) = fun _ => 0 := funext fun a => by fin_cases a <;> rfl

/-- First slab: the accumulator ends at the product of the two operand blocks. -/
theorem first_value (c : Dev nD) (i : grid0.Coords) (arg2 : Memref sig .tc .vmem S512x1024 .f32) (harg2 : arg2.IsWhole) (arg3 : Memref sig .tc .vmem S1024x64 .f32) (harg3 : arg3.IsWhole) (arg4 : Memref sig .tc .vmem S64 .f32) (harg4 : arg4.IsWhole) (arg5 : Memref sig .tc .vmem S512x64 .f32) (harg5 : arg5.IsWhole) (arg6 : Memref sig .tc .vmem S512x64 .f32) (harg6 : arg6.IsWhole) (hc0 : isFirst i) (hc1 : ¬isLater i) (hc2 : ¬isLast i)
    (x0 : Vec F S512x1024 .f32) (x1 : Vec F S1024x64 .f32) (x2 : Vec F S64 .f32)
    (hcov : ∀ y : S512x64.Idx, ∃ pc ∈ (runFirst c i arg2 harg2 arg3 harg3 arg4 harg4 arg5 harg5 arg6 harg6 hc0 hc1 hc2 x0 x1 x2).1, y ∈ pc.1.set) :
    accV.read (Elt F) (accV.writes (Elt F) accV.junk (runFirst c i arg2 harg2 arg3 harg3 arg4 harg4 arg5 harg5 arg6 harg6 hc0 hc1 hc2 x0 x1 x2).1) = k0_pay2 x0 x1 := by
  rw [View.read_writes_eq_canon _ _ _ hcov]
  unfold runFirst
  dsimp only
  rw [View.canon_unit_zero origin2]
  simp only [View.readAt_eq_ld, harg2.read_unread, harg3.read_unread, View.ld_unit_zero (S := S512x1024) origin2,
    View.ld_unit_zero (S := S1024x64) origin2]

/-- Later slab: the accumulator ends at what it held plus the product. -/
theorem later_value (c : Dev nD) (i : grid0.Coords) (arg2 : Memref sig .tc .vmem S512x1024 .f32) (harg2 : arg2.IsWhole) (arg3 : Memref sig .tc .vmem S1024x64 .f32) (harg3 : arg3.IsWhole) (arg4 : Memref sig .tc .vmem S64 .f32) (harg4 : arg4.IsWhole) (arg5 : Memref sig .tc .vmem S512x64 .f32) (harg5 : arg5.IsWhole) (arg6 : Memref sig .tc .vmem S512x64 .f32) (harg6 : arg6.IsWhole) (hc0 : ¬isFirst i) (hc1 : isLater i) (hc2 : ¬isLast i)
    (x0 : Vec F S512x1024 .f32) (x1 : Vec F S1024x64 .f32) (x2 : Vec F S64 .f32) (xs : Vec F S512x64 .f32)
    (hcov : ∀ y : S512x64.Idx, ∃ pc ∈ (runLater c i arg2 harg2 arg3 harg3 arg4 harg4 arg5 harg5 arg6 harg6 hc0 hc1 hc2 x0 x1 x2 xs).1, y ∈ pc.1.set) :
    accV.read (Elt F) (accV.writes (Elt F) accV.junk (runLater c i arg2 harg2 arg3 harg3 arg4 harg4 arg5 harg5 arg6 harg6 hc0 hc1 hc2 x0 x1 x2 xs).1) = k0_pay3 x0 x1 xs := by
  rw [View.read_writes_eq_canon _ _ _ hcov]
  unfold runLater
  dsimp only
  rw [View.canon_unit_zero origin2]
  simp only [View.readAt_eq_ld, harg2.read_unread, harg3.read_unread, harg6.read_unread, View.ld_unit_zero (S := S512x1024) origin2,
    View.ld_unit_zero (S := S1024x64) origin2, View.ld_unit_zero (S := S512x64) origin2]

/-- Last slab: the accumulator likewise, -/
theorem last_acc_value (c : Dev nD) (i : grid0.Coords) (arg2 : Memref sig .tc .vmem S512x1024 .f32) (harg2 : arg2.IsWhole) (arg3 : Memref sig .tc .vmem S1024x64 .f32) (harg3 : arg3.IsWhole) (arg4 : Memref sig .tc .vmem S64 .f32) (harg4 : arg4.IsWhole) (arg5 : Memref sig .tc .vmem S512x64 .f32) (harg5 : arg5.IsWhole) (arg6 : Memref sig .tc .vmem S512x64 .f32) (harg6 : arg6.IsWhole) (hc0 : ¬isFirst i) (hc1 : isLater i) (hc2 : isLast i)
    (x0 : Vec F S512x1024 .f32) (x1 : Vec F S1024x64 .f32) (x2 : Vec F S64 .f32) (xs : Vec F S512x64 .f32)
    (hcov : ∀ y : S512x64.Idx, ∃ pc ∈ (runLast c i arg2 harg2 arg3 harg3 arg4 harg4 arg5 harg5 arg6 harg6 hc0 hc1 hc2 x0 x1 x2 xs).2.1, y ∈ pc.1.set) :
    accV.read (Elt F) (accV.writes (Elt F) accV.junk (runLast c i arg2 harg2 arg3 harg3 arg4 harg4 arg5 harg5 arg6 harg6 hc0 hc1 hc2 x0 x1 x2 xs).2.1) = k0_pay3 x0 x1 xs := by
  rw [View.read_writes_eq_canon _ _ _ hcov]
  unfold runLast
  dsimp only
  sl_unfold_words
  rw [View.canon_unit_zero origin2]
  simp only [View.readAt_eq_ld, harg2.read_unread, harg3.read_unread, harg6.read_unread, View.ld_unit_zero (S := S512x1024) origin2,
    View.ld_unit_zero (S := S1024x64) origin2, View.ld_unit_zero (S := S512x64) origin2]

/-- and the output block ends at the normalised exponentials of that accumulator (read back after its store) plus the
    bias block. -/
theorem last_out_value (c : Dev nD) (i : grid0.Coords) (arg2 : Memref sig .tc .vmem S512x1024 .f32) (harg2 : arg2.IsWhole) (arg3 : Memref sig .tc .vmem S1024x64 .f32) (harg3 : arg3.IsWhole) (arg4 : Memref sig .tc .vmem S64 .f32) (harg4 : arg4.IsWhole) (arg5 : Memref sig .tc .vmem S512x64 .f32) (harg5 : arg5.IsWhole) (arg6 : Memref sig .tc .vmem S512x64 .f32) (harg6 : arg6.IsWhole) (hc0 : ¬isFirst i) (hc1 : isLater i) (hc2 : isLast i)
    (x0 : Vec F S512x1024 .f32) (x1 : Vec F S1024x64 .f32) (x2 : Vec F S64 .f32) (xs : Vec F S512x64 .f32)
    (hcov : ∀ y : S512x64.Idx, ∃ pc ∈ (runLast c i arg2 harg2 arg3 harg3 arg4 harg4 arg5 harg5 arg6 harg6 hc0 hc1 hc2 x0 x1 x2 xs).1, y ∈ pc.1.set) :
    outV.read (Elt F) (outV.writes (Elt F) outV.junk (runLast c i arg2 harg2 arg3 harg3 arg4 harg4 arg5 harg5 arg6 harg6 hc0 hc1 hc2 x0 x1 x2 xs).1) = k0_pay4 (k0_pay3 x0 x1 xs) x2 := by
  rw [View.read_writes_eq_canon _ _ _ hcov]
  unfold runLast
  dsimp only
  sl_unfold_words
  rw [View.canon_unit_zero origin2]
  simp only [View.readAt_eq_ld, harg2.read_unread, harg3.read_unread, harg4.read_unread, harg6.read_unread, View.ld_unit_zero (S := S512x1024) origin2,
    View.ld_unit_zero (S := S1024x64) origin2, View.ld_unit_zero (S := S512x64) origin2, View.ld_unit_zero (S := S64) origin1]
  rw [View.readCov_unit_zero (S := S512x64) _ origin2]

end Cert.KernelIdeal.Body

end
-- ==== Proof.IdealState.lean ====
/-
  The accumulator and the output block at each point, as values of the blocks.

  After a first slab the accumulator is the slab's stored product; after any later slab it is the later-slab store of
  the slab's blocks and what the point before left; and at a last slab the output block is the last-slab store of that
  accumulator and the bias block. A first slab ignores what came before, so the accumulator at a last slab unrolls to
  the four slabs of its own row block and no further.
-/
import proofs.«153409_g36782099923439_cont_sun_c4_695_25_alg».proof.Proof.IdealPieces

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The point `k` places before `t`. -/
def back (t : Fin cfg0.N) (k : ℕ) : Fin cfg0.N := ⟨t.val - k, Nat.lt_of_le_of_lt (Nat.sub_le _ _) t.isLt⟩

theorem acc_first (c : Dev nD) (t : Fin cfg0.N) (h0 : t.val % 4 = 0) :
    (stateAt m c t.val t.isLt).2 = k0_pay2 (iblk m c 0 t) (iblk m c 1 t) := by
  have h3 : ¬t.val % 4 = 3 := by omega
  rw [stateAt_first m c t h0 h3]
  show accAtFirst m c t h0 h3 = _
  unfold accAtFirst
  exact first_value c (grid0.coords t) (ms0 t) (hs0 t) (ms1 t) (hs1 t) (ms2 t) (hs2 t) (ms3 t) (hs3 t) accM (Memref.isWhole_whole _) ((isFirst_iff t).mpr h0) (fun hl => (isLater_iff t).mp hl h0) (fun hl => h3 ((isLast_iff t).mp hl)) (iblk m c 0 t) (iblk m c 1 t) (iblk m c 2 t) (accCoverFirst m c t h0 h3)

theorem acc_later (c : Dev nD) (t : Fin cfg0.N) (h0 : ¬t.val % 4 = 0) :
    (stateAt m c t.val t.isLt).2 = k0_pay3 (iblk m c 0 t) (iblk m c 1 t) (stateAt m c (back t 1).val (back t 1).isLt).2 := by
  by_cases h3 : t.val % 4 = 3
  · rw [stateAt_last m c t h0 h3]
    show accAtLast m c t h0 h3 _ = _
    unfold accAtLast
    exact last_acc_value c (grid0.coords t) (ms0 t) (hs0 t) (ms1 t) (hs1 t) (ms2 t) (hs2 t) (ms3 t) (hs3 t) accM (Memref.isWhole_whole _) (fun hf => h0 ((isFirst_iff t).mp hf)) ((isLater_iff t).mpr h0) ((isLast_iff t).mpr h3) (iblk m c 0 t) (iblk m c 1 t) (iblk m c 2 t) _ (accCoverLast m c t h0 h3 _)
  · rw [stateAt_later m c t h0 h3]
    show accAtLater m c t h0 h3 _ = _
    unfold accAtLater
    exact later_value c (grid0.coords t) (ms0 t) (hs0 t) (ms1 t) (hs1 t) (ms2 t) (hs2 t) (ms3 t) (hs3 t) accM (Memref.isWhole_whole _) (fun hf => h0 ((isFirst_iff t).mp hf)) ((isLater_iff t).mpr h0) (fun hl => h3 ((isLast_iff t).mp hl)) (iblk m c 0 t) (iblk m c 1 t) (iblk m c 2 t) _ (accCoverLater m c t h0 h3 _)

theorem out_last (c : Dev nD) (t : Fin cfg0.N) (h3 : t.val % 4 = 3) :
    (stateAt m c t.val t.isLt).1 = k0_pay4 (k0_pay3 (iblk m c 0 t) (iblk m c 1 t) (stateAt m c (back t 1).val (back t 1).isLt).2) (iblk m c 2 t) := by
  have h0 : ¬t.val % 4 = 0 := by omega
  rw [stateAt_last m c t h0 h3]
  show outAtLast m c t h0 h3 _ = _
  unfold outAtLast
  exact last_out_value c (grid0.coords t) (ms0 t) (hs0 t) (ms1 t) (hs1 t) (ms2 t) (hs2 t) (ms3 t) (hs3 t) accM (Memref.isWhole_whole _) (fun hf => h0 ((isFirst_iff t).mp hf)) ((isLater_iff t).mpr h0) ((isLast_iff t).mpr h3) (iblk m c 0 t) (iblk m c 1 t) (iblk m c 2 t) _ (outCoverLast m c t h0 h3 _)

/-- At a last slab: the output block is the last-slab store of the four slabs' stores, first to last, and the bias. -/
theorem out_unrolled (c : Dev nD) (t : Fin cfg0.N) (h3 : t.val % 4 = 3) :
    (dats m 0 c).after 3 t
      = k0_pay4 (k0_pay3 (iblk m c 0 t) (iblk m c 1 t)
          (k0_pay3 (iblk m c 0 (back t 1)) (iblk m c 1 (back t 1))
            (k0_pay3 (iblk m c 0 (back t 2)) (iblk m c 1 (back t 2))
              (k0_pay2 (iblk m c 0 (back t 3)) (iblk m c 1 (back t 3)))))) (iblk m c 2 t) := by
  have hN : t.val < 256 := lt_of_lt_of_eq t.isLt (show cfg0.N = 256 from N_0)
  rw [after_out, out_last m c t h3]
  have e1 := acc_later m c (back t 1) (by show ¬(t.val - 1) % 4 = 0; omega)
  have e2 := acc_later m c (back t 2) (by show ¬(t.val - 2) % 4 = 0; omega)
  have e3 := acc_first m c (back t 3) (by show (t.val - 3) % 4 = 0; omega)
  have b12 : back (back t 1) 1 = back t 2 := Fin.ext (by show t.val - 1 - 1 = t.val - 2; omega)
  have b23 : back (back t 2) 1 = back t 3 := Fin.ext (by show t.val - 2 - 1 = t.val - 3; omega)
  rw [b12] at e1
  rw [b23] at e2
  rw [e1, e2, e3]

end Cert.KernelIdeal.Body

end
-- ==== Proof.LibVariance.lean ====
/-
  The arithmetic the comparison rests on, on the extended reals.

  • The float words the two programs spell: 0x47C35000 is the real 100000, 0x3F800000 is 1, the zero word is 0, and
    0x3727C5AC is a positive real.
  • A finite sum of reals, coerced, is the sum of the coercions.
  • Finite values (those that are a real) are closed under +, −, ·, max, finite sums, division by a nonzero real, and the
    reciprocal square root of a positive real.
  • THE VARIANCE IDENTITY. For M finite values v and a divisor D equal to M, with centre μ = (∑ v) / D,
      (∑ p, (v p − μ) · (v p − μ)) / D  =  (∑ p, v p · v p) / D − μ · μ,
    because ∑ (v − μ)² = ∑ v² − 2 μ ∑ v + M μ² and ∑ v = D μ. Both sides are nonnegative reals. The identity needs the
    entries finite: at an infinite entry the two sides differ.
-/
import Idealize.ShloMosaic.PureOps.Ideal

noncomputable section

open scoped BigOperators

namespace Cert.NetMath

open Idealize.ShloMosaic

/-! ## The float words -/

theorem ofBits_zero : Ideal.ofBits .f32 0x00000000#32 = 0 := by
  simp [Ideal.ofBits, Ideal.ieee]

theorem ofBits_one : Ideal.ofBits .f32 0x3F800000#32 = ((1 : ℝ) : EReal) := by
  simp [Ideal.ofBits, Ideal.ieee, -EReal.coe_mul]; norm_num

theorem ofBits_count : Ideal.ofBits .f32 0x47C35000#32 = ((100000 : ℝ) : EReal) := by
  simp [Ideal.ofBits, Ideal.ieee, -EReal.coe_mul]; norm_num

theorem ofBits_eps : ∃ e : ℝ, 0 < e ∧ Ideal.ofBits .f32 0x3727C5AC#32 = (e : EReal) := by
  refine ⟨_, ?_, by simp [Ideal.ofBits, Ideal.ieee, -EReal.coe_mul]; rfl⟩
  norm_num

/-! ## Finite values -/

/-- A value is finite when it is a real. -/
def Fin' (x : EReal) : Prop := ∃ r : ℝ, x = (r : EReal)

theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem fin_coe (r : ℝ) : Fin' (r : EReal) := ⟨r, rfl⟩
theorem fin_zero : Fin' 0 := ⟨0, rfl⟩
theorem fin_add {x y : EReal} (hx : Fin' x) (hy : Fin' y) : Fin' (x + y) := by
  obtain ⟨a, rfl⟩ := hx; obtain ⟨b, rfl⟩ := hy; exact ⟨a + b, (EReal.coe_add a b).symm⟩
theorem fin_sub {x y : EReal} (hx : Fin' x) (hy : Fin' y) : Fin' (x - y) := by
  obtain ⟨a, rfl⟩ := hx; obtain ⟨b, rfl⟩ := hy; exact ⟨a - b, (EReal.coe_sub a b).symm⟩
theorem fin_mul {x y : EReal} (hx : Fin' x) (hy : Fin' y) : Fin' (x * y) := by
  obtain ⟨a, rfl⟩ := hx; obtain ⟨b, rfl⟩ := hy; exact ⟨a * b, (EReal.coe_mul a b).symm⟩
theorem fin_max {x y : EReal} (hx : Fin' x) (hy : Fin' y) : Fin' (max x y) := by
  rcases max_choice x y with h | h <;> rw [h] <;> assumption
theorem fin_sum {ι : Type} (s : Finset ι) (f : ι → EReal) (hf : ∀ i ∈ s, Fin' (f i)) : Fin' (∑ i ∈ s, f i) := by
  classical
  induction s using Finset.induction_on with
  | empty => simpa using fin_zero
  | insert a s ha ih =>
    rw [Finset.sum_insert ha]
    exact fin_add (hf a (Finset.mem_insert_self a s)) (ih fun i hi => hf i (Finset.mem_insert_of_mem hi))
theorem fin_div {x : EReal} (hx : Fin' x) {D : ℝ} (hD : D ≠ 0) : Fin' (Ideal.div x (D : EReal)) := by
  rw [Ideal.div_coe hD]; exact fin_mul hx (fin_coe _)
theorem fin_rsqrt {r : ℝ} (hr : 0 < r) : Fin' (Ideal.rsqrt (r : EReal)) := by
  refine ⟨(Real.sqrt r)⁻¹, ?_⟩
  show (if r < 0 then (⊥ : EReal) else if r = 0 then ⊤ else ((Real.sqrt r)⁻¹ : ℝ)) = _
  rw [if_neg (not_lt.mpr hr.le), if_neg hr.ne']

/-! ## The variance identity -/

theorem sum_sq_dev {M : ℕ} (r : Fin M → ℝ) (μ : ℝ) :
    ∑ p, (r p - μ) * (r p - μ) = (∑ p, r p * r p) - 2 * μ * (∑ p, r p) + (M : ℝ) * (μ * μ) := by
  have : ∀ p, (r p - μ) * (r p - μ) = r p * r p - 2 * μ * r p + μ * μ := fun p => by ring
  simp only [this, Finset.sum_add_distrib, Finset.sum_sub_distrib, ← Finset.mul_sum, Finset.sum_const,
    Finset.card_univ, Fintype.card_fin, nsmul_eq_mul]
  ring

/-- The mean of the squared deviations from the mean is the mean of the squares minus the squared mean, and it is a
    nonnegative real. -/
theorem var_identity {M : ℕ} (D : ℝ) (hD : D ≠ 0) (hM : (M : ℝ) = D) (v : Fin M → EReal) (hv : ∀ p, Fin' (v p)) :
    ∃ σ : ℝ, 0 ≤ σ ∧
      Ideal.div (∑ p, (v p - Ideal.div (∑ q, v q) (D : EReal)) * (v p - Ideal.div (∑ q, v q) (D : EReal))) (D : EReal)
        = (σ : EReal)
      ∧ Ideal.div (∑ p, v p * v p) (D : EReal)
          - Ideal.div (∑ q, v q) (D : EReal) * Ideal.div (∑ q, v q) (D : EReal) = (σ : EReal) := by
  choose r hr using hv
  have hvr : v = fun p => (r p : EReal) := funext hr
  subst hvr
  have hDpos : 0 < D := by rw [← hM]; rcases Nat.eq_zero_or_pos M with h | h
                           · exfalso; apply hD; rw [← hM, h]; simp
                           · exact_mod_cast h
  set μ : ℝ := (∑ q, r q) * (1 / D) with hμ
  have hmean : Ideal.div (∑ q, (r q : EReal)) (D : EReal) = (μ : EReal) := by
    rw [Ideal.div_coe hD, ← coe_sum, ← EReal.coe_mul]
  refine ⟨(∑ p, (r p - μ) * (r p - μ)) * (1 / D), ?_, ?_, ?_⟩
  · exact mul_nonneg (Finset.sum_nonneg fun p _ => mul_self_nonneg _) (by positivity)
  · rw [hmean, Ideal.div_coe hD]
    simp only [← EReal.coe_sub, ← EReal.coe_mul, ← coe_sum]
  · rw [hmean, Ideal.div_coe hD]
    simp only [← EReal.coe_mul, ← coe_sum, ← EReal.coe_sub]
    congr 1
    rw [sum_sq_dev, hM, hμ]
    field_simp
    ring

end Cert.NetMath

end
-- ==== Proof.RouterMath.lean ====
/-
  The arithmetic of a softmax row on the extended reals, and the slab split of a long sum.

  A row's maximum is taken from −∞ by folding `max` over its entries; for a nonempty row of reals it is a real. The
  exponentials of the entries less that maximum are then positive reals, so their sum is a positive real `s`, and for
  such a sum multiplying an exponential by `1 / s` and dividing it by `0 + s` are the same product with the real `1 / s`.
  That is the one place the two programs differ, and it needs the entries finite: at an infinite entry the sum need not
  be a nonzero real. The sum over 4096 contraction indices is the sum over four consecutive slabs of 1024, in any
  grouping, because addition of extended reals is commutative and associative.
-/
import proofs.«153409_g36782099923439_cont_sun_c4_695_25_alg».proof.Proof.LibVariance
import Idealize.ShloMosaic.PureOps.Ideal
import Idealize.ShloMosaic.PureOps.Ideal.Laws

noncomputable section

open scoped BigOperators

namespace Cert.RouterMath

open Idealize.ShloMosaic Cert.NetMath

/-! ## The float words -/

theorem ofBits_ninf : Ideal.ofBits .f32 0xFF800000#32 = (⊥ : EReal) := by
  simp [Ideal.ofBits, Ideal.ieee]

/-! ## A row's maximum -/

/-- The largest entry of a row, from −∞. -/
def rowMax {n : ℕ} (v : Fin n → EReal) : EReal := (Finset.univ : Finset (Fin n)).fold max (⊥ : EReal) v

/-- Folding `max` from −∞ over a set of reals gives −∞ for the empty set and a real otherwise. -/
theorem fold_max_fin {ι : Type} [DecidableEq ι] (v : ι → EReal) (hv : ∀ i, Fin' (v i)) (s : Finset ι) :
    (s = ∅ ∧ s.fold max (⊥ : EReal) v = ⊥) ∨ Fin' (s.fold max (⊥ : EReal) v) := by
  induction s using Finset.induction_on with
  | empty => exact Or.inl ⟨rfl, rfl⟩
  | insert a s ha ih =>
    refine Or.inr ?_
    rw [Finset.fold_insert ha]
    rcases ih with ⟨-, h⟩ | h
    · rw [h, max_eq_left bot_le]; exact hv a
    · exact fin_max (hv a) h

/-- A nonempty row of reals has a real maximum. -/
theorem fin_rowMax {n : ℕ} (hn : 0 < n) (v : Fin n → EReal) (hv : ∀ c, Fin' (v c)) : Fin' (rowMax v) := by
  rcases fold_max_fin v hv Finset.univ with ⟨h, -⟩ | h
  · exact absurd h (Finset.univ_nonempty_iff.mpr ⟨⟨0, hn⟩⟩).ne_empty
  · exact h

/-! ## The exponentials and their sum -/

/-- The exponentials of finitely many reals sum to a positive real (the row is nonempty). -/
theorem sum_exp_pos {n : ℕ} (hn : 0 < n) (u : Fin n → EReal) (hu : ∀ c, Fin' (u c)) :
    ∃ s : ℝ, 0 < s ∧ ∑ k, Ideal.exp (u k) = (s : EReal) := by
  choose r hr using hu
  obtain rfl : u = fun k => (r k : EReal) := funext hr
  refine ⟨∑ k, Real.exp (r k), Finset.sum_pos (fun _ _ => Real.exp_pos _) ⟨⟨0, hn⟩, Finset.mem_univ _⟩, ?_⟩
  rw [coe_sum]
  rfl

/-- Times the reciprocal of a nonzero real sum is divided by zero plus that sum. -/
theorem mul_recip_eq_div (e : EReal) {s : ℝ} (hs : s ≠ 0) :
    e * Ideal.div ((1 : ℝ) : EReal) (s : EReal) = Ideal.div e (0 + (s : EReal)) := by
  rw [zero_add, Ideal.div_coe hs, Ideal.div_coe hs, ← EReal.coe_mul, one_mul]

/-- The kernel's row: each entry's exponential less the row maximum, times one over the sum of those exponentials. -/
def softK {n : ℕ} (v : Fin n → EReal) (c : Fin n) : EReal :=
  Ideal.exp (v c - rowMax v) * Ideal.div ((1 : ℝ) : EReal) (∑ k, Ideal.exp (v k - rowMax v))

/-- The reference's row: the maximum taken once more against −∞, and the exponential divided by zero plus the sum. -/
def softR {n : ℕ} (v : Fin n → EReal) (c : Fin n) : EReal :=
  Ideal.div (Ideal.exp (v c - max (⊥ : EReal) (rowMax v))) (0 + ∑ k, Ideal.exp (v k - max (⊥ : EReal) (rowMax v)))

/-- On a nonempty row of reals the two agree. -/
theorem softK_eq_softR {n : ℕ} (hn : 0 < n) (v : Fin n → EReal) (hv : ∀ c, Fin' (v c)) (c : Fin n) :
    softK v c = softR v c := by
  unfold softK softR
  rw [max_eq_right bot_le]
  obtain ⟨s, hs, e⟩ := sum_exp_pos hn (fun k => v k - rowMax v) (fun k => fin_sub (hv k) (fin_rowMax hn v hv))
  rw [e]
  exact mul_recip_eq_div _ hs.ne'

/-! ## The contraction axis in four slabs -/

/-- Index `k` of slab `j` of the contraction axis. -/
def slabIx (j : Fin 4) (k : Fin 1024) : Fin 4096 := ⟨1024 * j.val + k.val, by omega⟩

/-- A sum over the 4096 contraction indices is the sum over the four slabs of the sums within each. -/
theorem sum_slabs (f : Fin 4096 → EReal) : ∑ k : Fin 4096, f k = ∑ j : Fin 4, ∑ k : Fin 1024, f (slabIx j k) := by
  rw [← Fintype.sum_prod_type' (f := fun j k => f (slabIx j k))]
  refine (Fintype.sum_equiv (finProdFinEquiv (m := 4) (n := 1024)) _ _ fun x => congrArg f (Fin.ext ?_)).symm
  simp only [slabIx, finProdFinEquiv_apply_val]
  omega

/-- So the accumulator's grouping, slab after slab, is the whole sum. -/
theorem slabs_eq_sum (f : Fin 4096 → EReal) :
    (((∑ k : Fin 1024, f (slabIx 0 k)) + ∑ k : Fin 1024, f (slabIx 1 k)) + ∑ k : Fin 1024, f (slabIx 2 k))
      + ∑ k : Fin 1024, f (slabIx 3 k) = ∑ k : Fin 4096, f k := by
  rw [sum_slabs, Fin.sum_univ_four]

/-- Sums and products of reals are real: a row of a product of two real matrices plus a real bias is real. -/
theorem fin_logit {K : ℕ} (a b : Fin K → EReal) (ha : ∀ k, Fin' (a k)) (hb : ∀ k, Fin' (b k)) (z : EReal) (hz : Fin' z) :
    Fin' ((∑ k, a k * b k) + z) :=
  fin_add (fin_sum _ _ fun k _ => fin_mul (ha k) (hb k)) hz

end Cert.RouterMath

end
-- ==== Proof.LibColumnAcross.lean ====
/-
  A one-column matrix broadcast across the columns, read at an entry.

  A column [a, 1] broadcast by the vector unit to [a, b] reads, at (p, c), the column at (p, 0).
-/
import Idealize.ShloMosaic.Lib.Pipeline.Value
import Idealize.ShloMosaic.Lib.ValueIdx

namespace Cert.Lib.ColumnAcross

open Idealize.ShloMosaic Idealize.ShloMosaic.ValueIdx

variable {α : Type}

/-- An `[a, 1]` column broadcast to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.ColumnAcross
-- ==== Proof.LibColumnCast.lean ====
/-
  A vector made a one-column matrix, read at an entry.

  An array of shape [a] cast to [a, 1] reads, at (p, u), the array at p, whatever the unit coordinate u.
-/
import Idealize.ShloMosaic.Lib.Pipeline.Value
import Idealize.ShloMosaic.Lib.ValueIdx

namespace Cert.Lib.ColumnCast

open Idealize.ShloMosaic Idealize.ShloMosaic.ValueIdx

variable {α : Type}

/-- An `[a]` array cast to `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Cert.Lib.ColumnCast
-- ==== Proof.IdealPayload.lean ====
/-
  The router kernel's arithmetic read at an entry, on the extended reals.

  The slab product at (p, q) is the sum over the slab's 1024 contraction indices of the products of row p of the left
  block with column q of the right block (the matrix unit accumulates into a zero block). The accumulator update adds
  that to what the accumulator held. The last slab's value at (p, q) is the softmax row form of row p of the logits —
  the completed accumulator plus the bias laid across the rows —: the exponential of the entry less the row maximum,
  times one over the sum of the row's exponentials.
-/
import proofs.«153409_g36782099923439_cont_sun_c4_695_25_alg».proof.Proof.Gen.KernelIdeal.Skeleton
import proofs.«153409_g36782099923439_cont_sun_c4_695_25_alg».proof.Proof.RouterMath
import proofs.«153409_g36782099923439_cont_sun_c4_695_25_alg».proof.Proof.LibColumnAcross
import proofs.«153409_g36782099923439_cont_sun_c4_695_25_alg».proof.Proof.LibColumnCast
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Payload

open Idealize.ShloMosaic Idealize.ShloMosaic.ValueIdx Cert.KernelIdeal Cert.KernelIdeal.Gen
open Cert.RouterMath Cert.NetMath Cert.Lib.ColumnAcross Cert.Lib.ColumnCast

/-! ## The slab product -/

theorem lhs_row (i : S512x64.Idx) (q : dot_S512x1024_S1024x64_S512x64_1_0_0_1_n_n.contr.Idx) : (dot_S512x1024_S1024x64_S512x64_1_0_0_1_n_n.lhsIdx i q 0).val = (i 0).val := by
  unfold DotDims.lhsIdx
  rw [dif_neg (show ¬(0 : Fin S512x1024.rank) ∈ dot_S512x1024_S1024x64_S512x64_1_0_0_1_n_n.lhsBatch by decide), dif_pos (show (0 : Fin S512x1024.rank) ∈ dot_S512x1024_S1024x64_S512x64_1_0_0_1_n_n.lhsNonContracting by decide)]
  rfl
theorem lhs_contr (i : S512x64.Idx) (q : dot_S512x1024_S1024x64_S512x64_1_0_0_1_n_n.contr.Idx) : (dot_S512x1024_S1024x64_S512x64_1_0_0_1_n_n.lhsIdx i q 1).val = (q ⟨0, by decide⟩).val :=
  dot_S512x1024_S1024x64_S512x64_1_0_0_1_n_n.lhsIdx_val_of_single rfl i q
theorem rhs_contr (i : S512x64.Idx) (q : dot_S512x1024_S1024x64_S512x64_1_0_0_1_n_n.contr.Idx) : (dot_S512x1024_S1024x64_S512x64_1_0_0_1_n_n.rhsIdx i q 0).val = (q ⟨0, by decide⟩).val :=
  dot_S512x1024_S1024x64_S512x64_1_0_0_1_n_n.rhsIdx_val_of_single rfl i q
theorem rhs_col (i : S512x64.Idx) (q : dot_S512x1024_S1024x64_S512x64_1_0_0_1_n_n.contr.Idx) : (dot_S512x1024_S1024x64_S512x64_1_0_0_1_n_n.rhsIdx i q 1).val = (i 1).val := by
  unfold DotDims.rhsIdx
  rw [dif_neg (show ¬(1 : Fin S1024x64.rank) ∈ dot_S512x1024_S1024x64_S512x64_1_0_0_1_n_n.rhsBatch by decide), dif_pos (show (1 : Fin S1024x64.rank) ∈ dot_S512x1024_S1024x64_S512x64_1_0_0_1_n_n.rhsNonContracting by decide)]
  rfl

/-- The product of a [512, 1024] block with a [1024, 64] block, accumulated into zero, at (p, q). -/
theorem slabProduct_apply (v0 : FVec Ideal S512x1024 .f32) (v1 : FVec Ideal S1024x64 .f32) (p : Fin 512) (q : Fin 64) :
    k0_pay1 (F := Ideal) v0 v1 (ix2 p q) = ∑ k : Fin 1024, v0 (ix2 p k) * v1 (ix2 k q) := by
  unfold k0_pay1
  simp only [matmul]
  rw [Ideal.matmul_constant_zero_apply, ← Equiv.sum_comp (contrEquiv1 dot_S512x1024_S1024x64_S512x64_1_0_0_1_n_n 1024 rfl rfl).symm]
  refine Finset.sum_congr rfl fun k _ => ?_
  have hk := contrEquiv1_symm_val dot_S512x1024_S1024x64_S512x64_1_0_0_1_n_n 1024 rfl rfl k
  have el : dot_S512x1024_S1024x64_S512x64_1_0_0_1_n_n.lhsIdx (ix2 p q) ((contrEquiv1 dot_S512x1024_S1024x64_S512x64_1_0_0_1_n_n 1024 rfl rfl).symm k) = ix2 p k := funext fun a => Fin.ext (by
    match a with
    | ⟨0, _⟩ => exact lhs_row _ _
    | ⟨1, _⟩ => exact (lhs_contr _ _).trans hk)
  have er : dot_S512x1024_S1024x64_S512x64_1_0_0_1_n_n.rhsIdx (ix2 p q) ((contrEquiv1 dot_S512x1024_S1024x64_S512x64_1_0_0_1_n_n 1024 rfl rfl).symm k) = ix2 k q := funext fun a => Fin.ext (by
    match a with
    | ⟨0, _⟩ => exact (rhs_contr _ _).trans hk
    | ⟨1, _⟩ => exact rhs_col _ _)
  rw [el, er]

/-- The first slab stores the product itself; a later slab what the accumulator held plus the product. -/
theorem firstStore_eq (v0 : FVec Ideal S512x1024 .f32) (v1 : FVec Ideal S1024x64 .f32) :
    k0_pay2 (F := Ideal) v0 v1 = k0_pay1 v0 v1 := by
  unfold k0_pay2; exact shapeCast_self _ _
theorem laterStore_eq (v0 : FVec Ideal S512x1024 .f32) (v1 : FVec Ideal S1024x64 .f32) (acc : FVec Ideal S512x64 .f32) :
    k0_pay3 (F := Ideal) v0 v1 acc = addf acc (k0_pay1 v0 v1) := by
  unfold k0_pay3; exact shapeCast_self _ _

/-! ## The row reductions and the column forms -/

/-- Row p of a [512, 64] block with column c put back is the entry (p, c). -/
theorem lift_eq (p : Fin 512) (c : Fin 64) : reduces_S512x64_S512.lift (ix1 p) c = ix2 p c :=
  funext fun a => Fin.ext (by match a with | ⟨0, _⟩ => rfl | ⟨1, _⟩ => rfl)

/-- A vector of row values made a column and laid across the columns reads, at (p, q), the value of row p. -/
theorem across_apply (y : FVec Ideal S512 .f32) (p : Fin 512) (q : Fin 64) :
    broadcastTo S512x64 (shapeCast S512x1 y shapeCasts_S512_S512x1) broadcasts_S512x1_S512x64 (ix2 p q) = y (ix1 p) := by
  rw [broadcastTo_a1_ab_apply, shapeCast_a_a1_apply]

/-- The bias vector made a row and laid down the rows reads, at (p, q), the bias at q. -/
theorem biasRows_apply (b : FVec Ideal S64 .f32) (p : Fin 512) (q : Fin 64) :
    broadcastTo S512x64 (shapeCast S1x64 b shapeCasts_S64_S1x64) broadcasts_S1x64_S512x64 (ix2 p q) = b (ix1 q) := by
  rw [broadcastTo_1b_ab_apply, shapeCast_a_1a_apply]

section Reductions

variable (hφ : FKind.Formats .f32) (hmax : (0xFF800000#32 : BitVec 32) = FKind.maximumf.neutral .f32 hφ)
  (hadd : (0x00000000#32 : BitVec 32) = FKind.add.neutral .f32 hφ)

/-- The lane maximum of a block's row, from the word for −∞, is the row's maximum. -/
theorem rowMax_apply (x : FVec Ideal S512x64 .f32) (p : Fin 512) :
    multiReduction .maximumf [1] S512 x 0xFF800000#32 reduces_S512x64_S512 hφ hmax (ix1 p)
      = rowMax (fun c : Fin 64 => x (ix2 p c)) := by
  refine (Ideal.multiReduction_maximumf_single x 0xFF800000#32 reduces_S512x64_S512 hφ hmax (ix1 p)).trans ?_
  show (Finset.univ : Finset (Fin 64)).fold max (Ideal.ofBits .f32 0xFF800000#32) (fun c : Fin 64 => x (reduces_S512x64_S512.lift (ix1 p) c)) = _
  rw [ofBits_ninf, show (fun c : Fin 64 => x (reduces_S512x64_S512.lift (ix1 p) c)) = fun c => x (ix2 p c) from
    funext fun c => congrArg x (lift_eq p c)]
  rfl

/-- The lane sum of a block's row is the sum of the row. -/
theorem rowSum_apply (x : FVec Ideal S512x64 .f32) (p : Fin 512) :
    multiReduction .add [1] S512 x 0x00000000#32 reduces_S512x64_S512 hφ hadd (ix1 p) = ∑ c : Fin 64, x (ix2 p c) :=
  (Ideal.multiReduction_add_single x 0x00000000#32 reduces_S512x64_S512 hφ hadd (ix1 p)).trans
    (Finset.sum_congr rfl fun c _ => congrArg x (lift_eq p c))

/-! ## The last slab's value -/

/-- The exponentials of a block's entries less their row's maximum. -/
def expShifted (L : FVec Ideal S512x64 .f32) : FVec Ideal S512x64 .f32 :=
  exp (subf L (broadcastTo S512x64 (shapeCast S512x1 (multiReduction .maximumf [1] S512 L 0xFF800000#32 reduces_S512x64_S512 hφ hmax) shapeCasts_S512_S512x1) broadcasts_S512x1_S512x64))

theorem expShifted_apply (L : FVec Ideal S512x64 .f32) (p : Fin 512) (q : Fin 64) :
    expShifted hφ hmax L (ix2 p q) = Ideal.exp (L (ix2 p q) - rowMax (fun c : Fin 64 => L (ix2 p c))) := by
  show Ideal.exp (L (ix2 p q) - broadcastTo S512x64 (shapeCast S512x1 _ shapeCasts_S512_S512x1) broadcasts_S512x1_S512x64 (ix2 p q)) = _
  rw [across_apply, rowMax_apply]

/-- Those exponentials times one over their row's sum. -/
def softBlock (L : FVec Ideal S512x64 .f32) : FVec Ideal S512x64 .f32 :=
  mulf (expShifted hφ hmax L)
    (broadcastTo S512x64 (divf (broadcast S512x1 (Scalar.ofBits (F := Ideal) .f32 0x3F800000#32))
      (shapeCast S512x1 (multiReduction .add [1] S512 (expShifted hφ hmax L) 0x00000000#32 reduces_S512x64_S512 hφ hadd) shapeCasts_S512_S512x1))
      broadcasts_S512x1_S512x64)

theorem softBlock_apply (L : FVec Ideal S512x64 .f32) (p : Fin 512) (q : Fin 64) :
    softBlock hφ hmax hadd L (ix2 p q) = softK (fun c : Fin 64 => L (ix2 p c)) q := by
  unfold softBlock softK
  rw [mulf_apply, expShifted_apply, broadcastTo_a1_ab_apply, divf_apply, broadcast_apply, shapeCast_a_a1_apply, rowSum_apply]
  simp only [expShifted_apply]
  rw [show (Scalar.ofBits (F := Ideal) .f32 0x3F800000#32 : Ideal .f32) = Ideal.ofBits .f32 0x3F800000#32 from rfl, ofBits_one]

end Reductions

/-- The last slab's store is that, of the accumulator plus the bias laid down the rows. -/
theorem lastStore_eq (acc : FVec Ideal S512x64 .f32) (b : FVec Ideal S64 .f32) :
    k0_pay4 (F := Ideal) acc b
      = softBlock (.inl rfl) rfl rfl (addf acc (broadcastTo S512x64 (shapeCast S1x64 b shapeCasts_S64_S1x64) broadcasts_S1x64_S512x64)) := rfl

/-- So at (p, q) it is the softmax row form of row p of accumulator plus bias. -/
theorem lastStore_apply (acc : FVec Ideal S512x64 .f32) (b : FVec Ideal S64 .f32) (p : Fin 512) (q : Fin 64) :
    k0_pay4 (F := Ideal) acc b (ix2 p q) = softK (fun c : Fin 64 => acc (ix2 p c) + b (ix1 c)) q :=
  (congrFun (lastStore_eq acc b) (ix2 p q)).trans
    ((softBlock_apply (.inl rfl) rfl rfl _ p q).trans
      (congrArg (fun v : Fin 64 → EReal => softK v q) (funext fun c => by rw [addf_apply, biasRows_apply])))

/-- Four slabs' stores, first to last, then the last slab's store: at (p, q) the softmax row form of the four slab products
    of row p added in that order, plus the bias. -/
theorem unrolled_apply (a0 a1 a2 a3 : FVec Ideal S512x1024 .f32) (w0 w1 w2 w3 : FVec Ideal S1024x64 .f32) (b : FVec Ideal S64 .f32)
    (p : Fin 512) (q : Fin 64) :
    k0_pay4 (F := Ideal) (k0_pay3 (F := Ideal) a3 w3 (k0_pay3 (F := Ideal) a2 w2 (k0_pay3 (F := Ideal) a1 w1 (k0_pay2 (F := Ideal) a0 w0)))) b (ix2 p q)
      = softK (fun c : Fin 64 => ((((∑ k : Fin 1024, a0 (ix2 p k) * w0 (ix2 k c)) + ∑ k : Fin 1024, a1 (ix2 p k) * w1 (ix2 k c))
          + ∑ k : Fin 1024, a2 (ix2 p k) * w2 (ix2 k c)) + ∑ k : Fin 1024, a3 (ix2 p k) * w3 (ix2 k c)) + b (ix1 c)) q := by
  rw [lastStore_apply, laterStore_eq, laterStore_eq, laterStore_eq, firstStore_eq]
  simp only [addf_apply, slabProduct_apply]

end Cert.KernelIdeal.Payload

end
-- ==== Proof.RouterSpec.lean ====
/-
  The router as one function of its three arrays.

  For tokens x [32768, 4096], weights W [4096, 64] and bias b [64], the logit of token r for expert c is
  (∑ k, x(r, k) · W(k, c)) + b(c), and the result at (r, c) is the softmax of row r of the logits. The kernel spells the
  normalisation as a product with one over the row's sum, the reference as a quotient by zero plus that sum, after taking
  the row maximum once more against −∞; on finite arrays the two are one function.
-/
import proofs.«153409_g36782099923439_cont_sun_c4_695_25_alg».proof.Proof.RouterMath
import Idealize.ShloMosaic.Lib.ValueIdx

noncomputable section

open scoped BigOperators

namespace Cert.RouterSpec

open Idealize.ShloMosaic Idealize.ShloMosaic.ValueIdx Cert.RouterMath Cert.NetMath

abbrev SX : Shape := ⟨2, ![32768, 4096]⟩
abbrev SW : Shape := ⟨2, ![4096, 64]⟩
abbrev SB : Shape := ⟨1, ![64]⟩
abbrev SO : Shape := ⟨2, ![32768, 64]⟩

variable (x : SX.Idx → EReal) (W : SW.Idx → EReal) (b : SB.Idx → EReal)

/-- The logit of token `r` for expert `c`. -/
def logit (r : Fin 32768) (c : Fin 64) : EReal := (∑ k : Fin 4096, x (ix2 r k) * W (ix2 k c)) + b (ix1 c)

/-- The kernel's spelling of the result, -/
def routerK : SO.Idx → EReal := fun i => softK (fun c : Fin 64 => logit x W b (i 0) c) (i 1)
/-- the reference's. -/
def routerR : SO.Idx → EReal := fun i => softR (fun c : Fin 64 => logit x W b (i 0) c) (i 1)

theorem routerK_apply (r : Fin 32768) (q : Fin 64) : routerK x W b (ix2 r q) = softK (fun c : Fin 64 => logit x W b r c) q := rfl
theorem routerR_apply (r : Fin 32768) (q : Fin 64) : routerR x W b (ix2 r q) = softR (fun c : Fin 64 => logit x W b r c) q := rfl

/-- On finite arrays the logits are real, so the two spellings agree everywhere. -/
theorem routerK_eq_routerR (hx : ∀ i, Fin' (x i)) (hW : ∀ i, Fin' (W i)) (hb : ∀ i, Fin' (b i)) : routerK x W b = routerR x W b :=
  funext fun i => softK_eq_softR (by decide) _
    (fun c => fin_logit (fun k : Fin 4096 => x (ix2 (i 0) k)) (fun k : Fin 4096 => W (ix2 k c)) (fun k => hx _) (fun k => hW _) _ (hb _)) _

end Cert.RouterSpec

end
-- ==== Proof.IdealValue.lean ====
/-
  The router kernel's result array is the router function of its three arguments.

  Point t is slab t % 4 of row block t / 4. The token block at t is rows 512·(t/4) … of x and columns 1024·(t%4) …; the
  weight block is rows 1024·(t%4) … of W; the bias block is all of b; the output block is rows 512·(t/4) … of the result.
  At the last slab of a row block the four slabs' products of row p, added in slab order, are the sum over all 4096
  contraction indices for row 512·(t/4) + p, so the block written back there is that row block of the router function.
  The 64 row blocks tile the result.
-/
import proofs.«153409_g36782099923439_cont_sun_c4_695_25_alg».proof.Proof.IdealState
import proofs.«153409_g36782099923439_cont_sun_c4_695_25_alg».proof.Proof.IdealPayload
import proofs.«153409_g36782099923439_cont_sun_c4_695_25_alg».proof.Proof.RouterSpec
import Idealize.ShloMosaic.Lib.Pipeline.Value

set_option maxRecDepth 16384

noncomputable section

open scoped BigOperators

namespace Cert.KernelIdeal.Body

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Payload Cert.RouterMath Cert.RouterSpec

variable (m : (ℓ : Loc nD τ sig) → Buf (Elt Ideal) ℓ) (ρ : Dev nD → PrngReg)

/-- The three arguments as the region finds them, and the three input blocks at a point, as arrays of extended reals. -/
abbrev argX (c : Dev nD) : FVec Ideal S32768x4096 .f32 := V m c main_arg0
abbrev argW (c : Dev nD) : FVec Ideal S4096x64 .f32 := V m c main_arg1
abbrev argB (c : Dev nD) : FVec Ideal S64 .f32 := V m c main_arg2
abbrev tokBlk (c : Dev nD) (t : Fin cfg0.N) : FVec Ideal S512x1024 .f32 := iblk m c 0 t
abbrev wgtBlk (c : Dev nD) (t : Fin cfg0.N) : FVec Ideal S1024x64 .f32 := iblk m c 1 t
abbrev biasBlk (c : Dev nD) (t : Fin cfg0.N) : FVec Ideal S64 .f32 := iblk m c 2 t

/-! ## The index maps, decided over the grid -/

theorem idx_facts : ∀ t : Fin cfg0.N,
    win0_0.index t (0 : Fin 2) = t.val / 4 ∧ win0_0.index t (1 : Fin 2) = t.val % 4
    ∧ win0_1.index t (0 : Fin 2) = t.val % 4 ∧ win0_1.index t (1 : Fin 2) = 0
    ∧ win0_2.index t (0 : Fin 1) = 0
    ∧ win0_3.index t (0 : Fin 2) = t.val / 4 ∧ win0_3.index t (1 : Fin 2) = 0 :=
  (by decide +kernel : ∀ t : Fin grid0.N, _)

/-! ## The blocks, read off the arrays -/

theorem tokenBlock_apply (c : Dev nD) (t : Fin cfg0.N) (p : Fin 512) (k : Fin 1024) (r : Fin 32768) (kk : Fin 4096)
    (hr : r.val = 512 * (t.val / 4) + p.val) (hk : kk.val = 1024 * (t.val % 4) + k.val) :
    tokBlk m c t (ix2 p k) = argX m c (ix2 r kk) := by
  obtain ⟨e0, e1, -⟩ := idx_facts t
  show V m c main_arg0 (((cfg0.win 0).blk t).view.emb (ix2 p k)) = V m c main_arg0 (ix2 r kk)
  refine congrArg (V m c main_arg0) (funext fun a => Fin.ext ?_)
  match a with
  | ⟨0, _⟩ => show win0_0.index t (0 : Fin 2) * 512 + 1 * p.val = r.val; omega
  | ⟨1, _⟩ => show win0_0.index t (1 : Fin 2) * 1024 + 1 * k.val = kk.val; omega

theorem weightBlock_apply (c : Dev nD) (t : Fin cfg0.N) (k : Fin 1024) (q : Fin 64) (kk : Fin 4096)
    (hk : kk.val = 1024 * (t.val % 4) + k.val) :
    wgtBlk m c t (ix2 k q) = argW m c (ix2 kk q) := by
  obtain ⟨-, -, e2, e3, -⟩ := idx_facts t
  show V m c main_arg1 (((cfg0.win 1).blk t).view.emb (ix2 k q)) = V m c main_arg1 (ix2 kk q)
  refine congrArg (V m c main_arg1) (funext fun a => Fin.ext ?_)
  match a with
  | ⟨0, _⟩ => show win0_1.index t (0 : Fin 2) * 1024 + 1 * k.val = kk.val; omega
  | ⟨1, _⟩ => show win0_1.index t (1 : Fin 2) * 64 + 1 * q.val = q.val; omega

theorem biasBlock_apply (c : Dev nD) (t : Fin cfg0.N) (q : Fin 64) :
    biasBlk m c t (ix1 q) = argB m c (ix1 q) := by
  obtain ⟨-, -, -, -, e4, -⟩ := idx_facts t
  show V m c main_arg2 (((cfg0.win 2).blk t).view.emb (ix1 q)) = V m c main_arg2 (ix1 q)
  refine congrArg (V m c main_arg2) (funext fun a => Fin.ext ?_)
  match a with
  | ⟨0, _⟩ => show win0_2.index t (0 : Fin 1) * 64 + 1 * q.val = q.val; omega

/-- Slab `j` of row `r`: the products of the token block's row with the weight block's column, summed, are the products
    of `x`'s row `r` with `W`'s column over that slab's contraction indices. -/
theorem slab_sum (c : Dev nD) (s : Fin cfg0.N) (j : Fin 4) (hj : s.val % 4 = j.val) (p : Fin 512) (r : Fin 32768)
    (hr : r.val = 512 * (s.val / 4) + p.val) (q : Fin 64) :
    ∑ k : Fin 1024, tokBlk m c s (ix2 p k) * wgtBlk m c s (ix2 k q)
      = ∑ k : Fin 1024, argX m c (ix2 r (slabIx j k)) * argW m c (ix2 (slabIx j k) q) :=
  Finset.sum_congr rfl fun k _ => by
    have hk : (slabIx j k).val = 1024 * (s.val % 4) + k.val := by show 1024 * j.val + k.val = _; rw [hj]
    rw [tokenBlock_apply m c s p k r (slabIx j k) hr hk, weightBlock_apply m c s k q (slabIx j k) hk]

/-! ## The last slab's value -/

/-- At the last slab of a row block the output block holds, at (p, q), the router function at row 512·(t/4) + p. -/
theorem out_value (c : Dev nD) (t : Fin cfg0.N) (h3 : t.val % 4 = 3) (p : Fin 512) (q : Fin 64) (r : Fin 32768)
    (hr : r.val = 512 * (t.val / 4) + p.val) :
    ((dats m 0 c).after 3 t : FVec Ideal S512x64 .f32) (ix2 p q) = routerK (argX m c) (argW m c) (argB m c) (ix2 r q) := by
  have hN : t.val < 256 := lt_of_lt_of_eq t.isLt (show cfg0.N = 256 from N_0)
  refine (congrFun (out_unrolled m c t h3) (ix2 p q)).trans ?_
  refine (unrolled_apply (tokBlk m c (back t 3)) (tokBlk m c (back t 2)) (tokBlk m c (back t 1)) (tokBlk m c t)
    (wgtBlk m c (back t 3)) (wgtBlk m c (back t 2)) (wgtBlk m c (back t 1)) (wgtBlk m c t) (biasBlk m c t) p q).trans ?_
  rw [routerK_apply]
  refine congrArg (fun v : Fin 64 → EReal => softK v q) (funext fun cc => ?_)
  unfold logit
  rw [← slabs_eq_sum (fun k : Fin 4096 => argX m c (ix2 r k) * argW m c (ix2 k cc))]
  rw [slab_sum m c (back t 3) 0 (by show (t.val - 3) % 4 = 0; omega) p r (by show r.val = 512 * ((t.val - 3) / 4) + p.val; omega) cc,
    slab_sum m c (back t 2) 1 (by show (t.val - 2) % 4 = 1; omega) p r (by show r.val = 512 * ((t.val - 2) / 4) + p.val; omega) cc,
    slab_sum m c (back t 1) 2 (by show (t.val - 1) % 4 = 2; omega) p r (by show r.val = 512 * ((t.val - 1) / 4) + p.val; omega) cc,
    slab_sum m c t 3 (by show t.val % 4 = 3; exact h3) p r hr cc,
    biasBlock_apply m c t cc]

/-! ## From blocks to the array -/

/-- What a flushing point writes back is its block of the router function. -/
theorem flushed_eq (c : Dev nD) (t : Fin cfg0.N) (hf : (cfg0.win 3).flush t = true) :
    (dats m 0 c).flushed 3 t = ((cfg0.win 3).blk t).view.read (Elt Ideal) (routerK (argX m c) (argW m c) (argB m c)) := by
  have h3 : t.val % 4 = 3 := (flush0_3 t).mp hf
  have hN : t.val < 256 := lt_of_lt_of_eq t.isLt (show cfg0.N = 256 from N_0)
  obtain ⟨-, -, -, -, -, e5, e6⟩ := idx_facts t
  show (cfg0.win 3).cut (grid0.coords t) ((dats m 0 c).after 3 t) = _
  funext j
  obtain ⟨p, q, rfl⟩ : ∃ (p : Fin 512) (q : Fin 64), j = ix2 p q := ⟨j 0, j 1, eq_ix2 j⟩
  show ((dats m 0 c).after 3 t : FVec Ideal S512x64 .f32) (ix2 p q) = routerK (argX m c) (argW m c) (argB m c) (((cfg0.win 3).blk t).view.emb (ix2 p q))
  rw [out_value m c t h3 p q ⟨512 * (t.val / 4) + p.val, by have := p.isLt; omega⟩ rfl]
  refine congrArg (routerK (argX m c) (argW m c) (argB m c)) (funext fun a => Fin.ext ?_)
  match a with
  | ⟨0, _⟩ => show 512 * (t.val / 4) + p.val = win0_3.index t (0 : Fin 2) * 512 + 1 * p.val; omega
  | ⟨1, _⟩ => show q.val = win0_3.index t (1 : Fin 2) * 64 + 1 * q.val; omega

/-- An index of the result is in point `t`'s block iff each coordinate is in the block's range on its axis. -/
theorem mem_outBlock (t : Fin cfg0.N) (i : S32768x64.Idx) :
    i ∈ ((cfg0.win 3).blk t).view.set ↔ ∀ a : Fin 2, win0_3.index t a * S512x64.size a ≤ (i a).val ∧ (i a).val < win0_3.index t a * S512x64.size a + S512x64.size a := by
  show i ∈ ((View.whole main_v0).slice (win0_3.rect t)).set ↔ _
  rw [View.set_slice_whole, Rect.mem_set_unit]
  exact Iff.rfl

/-- Every index of the result is in the block written back at the last slab of its row block. -/
theorem covered (i : S32768x64.Idx) : ∃ t : Fin cfg0.N, (cfg0.win 3).flush t = true ∧ i ∈ ((cfg0.win 3).blk t).view.set := by
  have hi0 : (i 0).val < 32768 := (i 0).isLt
  have hi1 : (i 1).val < 64 := (i 1).isLt
  have hN : cfg0.N = 256 := N_0
  let t : Fin cfg0.N := ⟨4 * ((i 0).val / 512) + 3, by rw [hN]; omega⟩
  have ht : t.val = 4 * ((i 0).val / 512) + 3 := rfl
  obtain ⟨-, -, -, -, -, e5, e6⟩ := idx_facts t
  refine ⟨t, (flush0_3 t).mpr (by rw [ht]; omega), ?_⟩
  rw [mem_outBlock]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 64 ≤ (i 1).val ∧ (i 1).val < win0_3.index t (1 : Fin 2) * 64 + 64; omega

/-- So the result array ends holding the router function of the arguments as the region finds them. -/
theorem final (c : Dev nD) : (dats m 0 c).arrAt 3 cfg0.N = routerK (argX m c) (argW m c) (argB m c) :=
  (dats m 0 c).arrAt_eq_of_cover 3 (routerK (argX m c) (argW m c) (argB m c)) (fun t hf => flushed_eq m c t hf) covered

/-! ## The run, read -/

/-- Every execution ends with the result at the router function of the arguments and the arguments as they were. -/
theorem run : θ_run defs (onTc (τ := τ) (main (F := Ideal))) ⟨m, fun _ => 0, ρ⟩ fun r => ∀ c : Dev nD,
      r.2.mem ((c.tc : Thread nD τ).loc main_v0)
        = routerK (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).1 3).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main (F := Ideal) m ρ)

end Cert.KernelIdeal.Body

end
-- ==== Proof.RefValue.lean ====
/-
  The reference's result is the router function of its arguments, in the reference's own spelling.

  Its logits are the host's product of the two matrices plus the bias laid across the rows; each row's maximum is the
  host's maximum reduction from −∞, taken once more against −∞; the exponentials of the logits less that are divided by
  zero plus their row sum.
-/
import proofs.«153409_g36782099923439_cont_sun_c4_695_25_alg».proof.Proof.Gen.ReferenceIdeal.Read
import proofs.«153409_g36782099923439_cont_sun_c4_695_25_alg».proof.Proof.RouterSpec
import Idealize.ShloMosaic.PureOps.Ideal.Laws
import Idealize.ShloMosaic.Lib.ValueIdx

set_option maxRecDepth 16384

noncomputable section

open scoped BigOperators

namespace Cert.ReferenceIdeal.RefValue

open Cert.ReferenceIdeal Cert.ReferenceIdeal.Gen Cert.ReferenceIdeal.Read
open Idealize.ShloMosaic Idealize.ShloMosaic.ValueIdx Cert.RouterMath Cert.RouterSpec

variable (x0 : FVec Ideal S32768x4096 .f32) (x1 : FVec Ideal S4096x64 .f32) (x2 : FVec Ideal S64 .f32)

/-- The logits stage at (r, c). -/
theorem logits_apply (r : Fin 32768) (c : Fin 64) :
    val_main_v3 (F := Ideal) x0 x1 x2 (ix2 r c) = logit x0 x1 x2 r c := by
  rw [val_main_v3_apply, val_main_v0_apply, val_main_v2_apply, val_main_v1_apply]
  have e1 : ∀ k : Fin 4096, lidx_main_v0 (ix2 r c) k = ix2 r k := fun k =>
    funext fun a => Fin.ext (by match a with | ⟨0, _⟩ => rfl | ⟨1, _⟩ => rfl)
  have e2 : ∀ k : Fin 4096, ridx_main_v0 (ix2 r c) k = ix2 k c := fun k =>
    funext fun a => Fin.ext (by match a with | ⟨0, _⟩ => rfl | ⟨1, _⟩ => rfl)
  have e3 : idx_main_v1 (idx_main_v2 (ix2 r c)) = ix1 c := funext fun a => Fin.ext (by match a with | ⟨0, _⟩ => rfl)
  simp only [e1, e2, e3]
  rfl

/-- The host's maximum reduction of the logits, from the word for −∞, at row r. -/
theorem rowmax_apply (r : Fin 32768) :
    val_main_v4 (F := Ideal) x0 x1 x2 (ix1 r) = rowMax (fun c : Fin 64 => logit x0 x1 x2 r c) := by
  have hR : S32768x64.Reduces [1] S32768 := by decide
  unfold val_main_v4
  rw [Host.reduce_eq_fold_single (FloatOps.maximumf (F := Ideal) (φ := .f32)) (val_main_v3 (F := Ideal) x0 x1 x2) (val_main_cst (F := Ideal))
    reducesTo_S32768x64_S32768_d1 hR h_S_ (ix1 r)]
  have hl : (val_main_v3 (F := Ideal) x0 x1 x2 ∘ hR.lift (ix1 r)) = fun c : Fin 64 => logit x0 x1 x2 r c := funext fun (c : Fin 64) =>
    (congrArg (val_main_v3 (F := Ideal) x0 x1 x2) (show hR.lift (ix1 r) c = ix2 r c from
      funext fun a => Fin.ext (by match a with | ⟨0, _⟩ => rfl | ⟨1, _⟩ => rfl))).trans (logits_apply x0 x1 x2 r c)
  rw [hl]
  show (Finset.univ : Finset (Fin 64)).fold max (Ideal.ofBits .f32 0xFF800000#32) _ = _
  rw [ofBits_ninf]
  rfl

/-- The exponentials stage at (r, c). -/
theorem exps_apply (r : Fin 32768) (c : Fin 64) :
    val_main_v10 (F := Ideal) x0 x1 x2 (ix2 r c)
      = Ideal.exp (logit x0 x1 x2 r c - max (⊥ : EReal) (rowMax (fun c' : Fin 64 => logit x0 x1 x2 r c'))) := by
  rw [val_main_v10_apply, val_main_v9_apply, val_main_v8_apply, val_main_v7_apply, val_main_v6_apply, val_main_v5_apply,
    val_main_cst_0_apply, logits_apply]
  rw [show idx_main_v7 (idx_main_v8 (ix2 r c)) = ix1 r from funext fun a => Fin.ext (by match a with | ⟨0, _⟩ => rfl), rowmax_apply]
  show Ideal.exp (_ - max (Ideal.ofBits .f32 0xFF800000#32) _) = _
  rw [ofBits_ninf]

/-- The reference's result is `routerR` of its arguments. -/
theorem result_eq : val_main_v14 (F := Ideal) x0 x1 x2 = routerR x0 x1 x2 := by
  funext i
  obtain ⟨r, q, rfl⟩ : ∃ (r : Fin 32768) (q : Fin 64), i = ix2 r q := ⟨i 0, i 1, eq_ix2 i⟩
  rw [routerR_apply, val_main_v14_apply, val_main_v13_apply, val_main_v12_apply, val_main_v11_apply, val_main_cst_1_apply, exps_apply]
  have e : ∀ k : Fin 64, idx_main_v11 (idx_main_v12 (idx_main_v13 (ix2 r q))) k = ix2 r k := fun k =>
    funext fun a => Fin.ext (by match a with | ⟨0, _⟩ => rfl | ⟨1, _⟩ => rfl)
  simp only [e, exps_apply]
  show Ideal.div _ (Ideal.ofBits .f32 0x00000000#32 + _) = _
  rw [Ideal.ofBits_zero_f32]
  rfl

end Cert.ReferenceIdeal.RefValue

end
-- ==== Proof.FiniteInputs.lean ====
/-
  The precondition read: every entry of the three arguments is a real.

  The printed predicate is, for each argument, the conjunction over all its entries of |entry| < +∞, and then the
  conjunction of the three. On the extended reals |v| is the larger of v and −v, which is +∞ exactly at the two
  infinities, so the predicate holds exactly when every entry is a real.
-/
import proofs.«153409_g36782099923439_cont_sun_c4_695_25_alg».proof.Pre_finite_inputs
import proofs.«153409_g36782099923439_cont_sun_c4_695_25_alg».proof.Proof.Gen.Pre_finite_inputs
import proofs.«153409_g36782099923439_cont_sun_c4_695_25_alg».proof.Proof.LibVariance
import Idealize.ShloMosaic.PureOps.Ideal
import Idealize.ShloMosaic.Lib.ReduceAll
import Idealize.ShloMosaic.Lib.Affine
import Idealize.ShloMosaic.Lib.ValueIdx

set_option maxRecDepth 16384

noncomputable section

namespace Cert.RouterFinite

open Idealize.ShloMosaic Idealize.ShloMosaic.ValueIdx Cert.NetMath Cert.Pre_finite_inputs

/-- An extended real whose absolute value is below the word for +∞ is a real. -/
theorem fin_of_abs_lt_inf (v : EReal) (h : Ideal.cmp .olt (max v (-v)) (Ideal.ofBits .f32 0x7F800000#32) = 1#1) : Fin' v := by
  have htop : Ideal.ofBits .f32 0x7F800000#32 = (⊤ : EReal) := by simp [Ideal.ofBits, Ideal.ieee]
  rw [htop] at h
  have hlt : max v (-v) < ⊤ := by
    by_contra hn
    unfold Ideal.cmp at h
    simp [hn] at h
  induction v using EReal.rec with
  | bot => simp at hlt
  | top => simp at hlt
  | coe r => exact ⟨r, rfl⟩

/-- The printed predicate, all ones, makes every entry of every argument a real. -/
theorem finite_of_pre (x0 : FVec Ideal S32768x4096 .f32) (x1 : FVec Ideal S4096x64 .f32) (x2 : FVec Ideal S64 .f32)
    (h : Cert.Pre_finite_inputs.fn (F := Ideal) x0 x1 x2 = fun _ => 1#1) :
    (∀ i, Fin' (x0 i)) ∧ (∀ i, Fin' (x1 i)) ∧ (∀ i, Fin' (x2 i)) := by
  have h0 := congrFun h ix0
  dsimp only [Cert.Pre_finite_inputs.fn] at h0
  obtain ⟨h01, hC⟩ := IntOp.andi_eq_one.mp h0
  obtain ⟨hA, hB⟩ := IntOp.andi_eq_one.mp h01
  haveI : Subsingleton S_.Idx := ⟨fun a b => funext fun d => d.elim0⟩
  refine ⟨fun i => ?_, fun i => ?_, fun i => ?_⟩
  · exact fin_of_abs_lt_inf _ (Host.reduce_andi_all _ _ _ _ _ hA i)
  · exact fin_of_abs_lt_inf _ (Host.reduce_andi_all _ _ _ _ _ hB i)
  · exact fin_of_abs_lt_inf _ (Host.reduce_andi_all _ _ _ _ _ hC i)

end Cert.RouterFinite

end
-- ==== Proof.lean ====
/-
  A mixture-of-experts router: probs = softmax(x · W + b) over f32[32768, 4096] tokens, f32[4096, 64] weights and an f32[64]
  bias, computed by one kernel on a grid of 64 row blocks by 4 slabs of the contracted axis, against the plain jnp program.

  THE KERNEL. At each point the matrix unit multiplies a [512, 1024] token block by a [1024, 64] weight block into a
  zero block. At the first slab of a row block that product overwrites an accumulator the kernel keeps between points; at
  each later slab it is added to the accumulator; at the last slab the bias is laid down the rows, each row's maximum is
  taken from −∞, the exponentials of the entries less that maximum are multiplied by one over their row sum, and the
  result is stored into the output block, which is written back only there.

  THE REFERENCE. One host product of the whole matrices plus the bias across the rows; each row's maximum by the host's
  reduction from −∞, taken once more against −∞; the exponentials divided by zero plus their row sum.

  WHY THEY AGREE ON THE EXTENDED REALS. Addition there is commutative and associative, so the accumulator's grouping — four
  partial sums of 1024 products, added in slab order — is the sum over all 4096 contraction indices. The maximum against −∞
  changes nothing. What is left is a product with 1 / s against a quotient by 0 + s, where s is the row's sum of
  exponentials; these agree when s is a nonzero real, and s is a positive real when the logits are real, which the
  precondition (every entry of x, W and b is a real) gives. At an infinite entry the claim would not follow this way, and
  this is the only place the precondition is used.

  THE FRAMES. The two printed kernel programs are one text read at words and at extended reals. Their body is run once
  per case of its three conditionals on the slab number; the accumulator is carried in the region's invariant from each
  point to the next at the contents the point before left; the output block is idle except at a row block's last slab.
  The reference is a straight line of host operations. The idealizing pass rewrote nothing, so the word-level program and
  its idealization differ in nothing that needs an argument.
-/
import proofs.«153409_g36782099923439_cont_sun_c4_695_25_alg».proof.Defs
import proofs.«153409_g36782099923439_cont_sun_c4_695_25_alg».proof.Proof.Gen.Kernel
import proofs.«153409_g36782099923439_cont_sun_c4_695_25_alg».proof.Proof.Gen.KernelIdeal
import proofs.«153409_g36782099923439_cont_sun_c4_695_25_alg».proof.Proof.Gen.ReferenceIdeal
import proofs.«153409_g36782099923439_cont_sun_c4_695_25_alg».proof.Proof.Gen.Pre_finite_inputs
import proofs.«153409_g36782099923439_cont_sun_c4_695_25_alg».proof.Proof.Gen.ReferenceIdeal.Run
import proofs.«153409_g36782099923439_cont_sun_c4_695_25_alg».proof.Proof.Gen.ReferenceIdeal.Read
import proofs.«153409_g36782099923439_cont_sun_c4_695_25_alg».proof.Proof.BitsFrame
import proofs.«153409_g36782099923439_cont_sun_c4_695_25_alg».proof.Proof.IdealValue
import proofs.«153409_g36782099923439_cont_sun_c4_695_25_alg».proof.Proof.RefValue
import proofs.«153409_g36782099923439_cont_sun_c4_695_25_alg».proof.Proof.FiniteInputs
import Idealize.ShloMosaic.Adequacy
import Idealize.ShloMosaic.Init

noncomputable section

namespace Cert.Proof

open Idealize.ShloMosaic Idealize.SL.Sem

/-- The word-level kernel runs to its end, faults nowhere and leaves its arguments as they were. -/
theorem frame_kernel : Cert.frame_Kernel := fun m ρ _ => Cert.Kernel.Body.frame (F := Bits) m ρ

/-- So does its reading on the extended reals. -/
theorem frame_kernelIdeal : Cert.frame_KernelIdeal := fun m ρ _ => Cert.KernelIdeal.Body.frame (F := Ideal) m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealizing pass rewrote no operation. -/
theorem preserves : Cert.preserves_Kernel_KernelIdeal := trivial

/-- From memories agreeing on the arguments the kernel ends at the router function in its own spelling and the reference
    at the router function in its; on finite arguments these are one function. -/
theorem algebraic : Cert.algebraic_KernelIdeal_ReferenceIdeal := by
  intro m ρ m' ρ' hpre hagree
  refine ⟨_, Cert.KernelIdeal.Body.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.result_eq, (hagree c).1, (hagree c).2.1, (hagree c).2.2]
  obtain ⟨hx, hW, hb⟩ := Cert.RouterFinite.finite_of_pre _ _ _ (hpre c)
  exact (Cert.RouterSpec.routerK_eq_routerR _ _ _ hx hW hb).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
